-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4096 : Shape := ⟨2, ![50000, 4096]⟩
abbrev S2x800000 : Shape := ⟨2, ![2, 800000]⟩
abbrev S50000 : Shape := ⟨1, ![50000]⟩
abbrev S4096x1024 : Shape := ⟨2, ![4096, 1024]⟩
abbrev S1024 : Shape := ⟨1, ![1024]⟩
abbrev S1024x1280 : Shape := ⟨2, ![1024, 1280]⟩
abbrev S1280 : Shape := ⟨1, ![1280]⟩
abbrev S1280x256 : Shape := ⟨2, ![1280, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x4096 : S_.BroadcastsInDim S50000x4096 (![] : Fin 0 → Fin S50000x4096.rank)
  reducesTo_S50000x4096_S_d0_1 : S50000x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x1280 : S_.BroadcastsInDim S1024x1280 (![] : Fin 0 → Fin S1024x1280.rank)
  reducesTo_S1024x1280_S_d0_1 : S1024x1280.ReducesTo [0, 1] S_
  bcast_S_S1280 : S_.BroadcastsInDim S1280 (![] : Fin 0 → Fin S1280.rank)
  reducesTo_S1280_S_d0 : S1280.ReducesTo [0] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S256x128 .f32) (main_arg14 : FVec F S128 .f32) (main_arg15 : FVec F S128x64 .f32) (main_arg16 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S256x128 .f32) (main_arg10 : FVec F S128 .f32) (main_arg11 : FVec F S1280x256 .f32) (main_arg12 : FVec F S256 .f32) (main_arg13 : FVec F S256x128 .f32) (main_arg14 : FVec F S128 .f32) (main_arg15 : FVec F S128x64 .f32) (main_arg16 : FVec F S64 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1280x256 .f32 := Host.absf main_arg11
  let main_cst_16 : FVec F S_ .f32 := constant S_ .f32 0x7F800000#32
  let main_v45 : FVec F S1280x256 .f32 := broadcastInDim S1280x256 ![] bcast_S_S1280x256 main_cst_16
  let main_v46 : IVec S1280x256 1 := cmpf .olt main_v44 main_v45
  let main_c_17 : IVec S_ 1 := constantI S_ 1 1#1
  let main_v47 : IVec S_ 1 := (fun x v => Host.reduce IntOp.andi x v reducesTo_S1280x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S1280 .f32) (main_arg7 : FVec F S1280x256 .f32) (main_arg8 : FVec F S256 .f32) (main_arg9 : FVec F S256x128 .f32) (main_arg10 : FVec F S128 .f32) (main_arg11 : FVec F S1280x256 .f32) (main_arg12 : FVec F S256 .f32) (main_arg13 : FVec F S256x128 .f32) (main_arg14 : FVec F S128 .f32) (main_arg15 : FVec F S128x64 .f32) (main_arg16 : FVec F S64 .f32) (main_v13 : IVec S_ 1) (main_v16 : IVec S1024x1280 1) : IVec S_ 1 :=
  let main_c_5 : IVec S_ 1 := constantI S_ 1 1#1
  let main_v17 : IVec S_ 1 := (fun x v => Host.reduce IntOp.andi x v reducesTo_S1024x1280_S_d0_1 h_S_) main_v16 main_c_5
  let main_v18 : IVec S_ 1 := andi main_v13 main_v17
  let main_v19 : FVec F S1280 .f32 := Host.absf main_arg6
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  let main_v24 : FVec F S1280x256 .f32 := Host.absf main_arg7
  let main_cst_8 : FVec F S_ .f32 := constant S_ .f32 0x7F800000#32
  let main_v25 : FVec F S1280x256 .f32 := broadcastInDim S1280x256 ![] bcast_S_S1280x256 main_cst_8
  let main_v26 : IVec S1280x256 1 := cmpf .olt main_v24 main_v25
  let main_c_9 : IVec S_ 1 := constantI S_ 1 1#1
  let main_v27 : IVec S_ 1 := (fun x v => Host.reduce IntOp.andi x v reducesTo_S1280x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x4096 .f32) (main_arg1 : IVec S2x800000 32) (main_arg2 : IVec S50000 1) (main_arg3 : FVec F S4096x1024 .f32) (main_arg4 : FVec F S1024 .f32) (main_arg5 : FVec F S1024x1280 .f32) (main_arg6 : FVec F S1280 .f32) (main_arg7 : FVec F S1280x256 .f32) (main_arg8 : FVec F S256 .f32) (main_arg9 : FVec F S256x128 .f32) (main_arg10 : FVec F S128 .f32) (main_arg11 : FVec F S1280x256 .f32) (main_arg12 : FVec F S256 .f32) (main_arg13 : FVec F S256x128 .f32) (main_arg14 : FVec F S128 .f32) (main_arg15 : FVec F S128x64 .f32) (main_arg16 : FVec F S64 .f32) : IVec S_ 1 :=
  let main_v0 : FVec F S50000x4096 .f32 := Host.absf main_arg0
  let main_cst : FVec F S_ .f32 := constant S_ .f32 0x7F800000#32
  let main_v1 : FVec F S50000x4096 .f32 := broadcastInDim S50000x4096 ![] bcast_S_S50000x4096 main_cst
  let main_v2 : IVec S50000x4096 1 := cmpf .olt main_v0 main_v1
  let main_c : IVec S_ 1 := constantI S_ 1 1#1
  let main_v3 : IVec S_ 1 := (fun x v => Host.reduce IntOp.andi x v reducesTo_S50000x4096_S_d0_1 h_S_) main_v2 main_c
  let main_v4 : FVec F S4096x1024 .f32 := Host.absf main_arg3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1280 .f32 := Host.absf main_arg5
  let main_cst_4 : FVec F S_ .f32 := constant S_ .f32 0x7F800000#32
  let main_v15 : FVec F S1024x1280 .f32 := broadcastInDim S1024x1280 ![] bcast_S_S1024x1280 main_cst_4
  let main_v16 : IVec S1024x1280 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x4096 : Shape := ⟨2, ![50000, 4096]⟩
abbrev S2x800000 : Shape := ⟨2, ![2, 800000]⟩
abbrev S50000 : Shape := ⟨1, ![50000]⟩
abbrev S4096x1024 : Shape := ⟨2, ![4096, 1024]⟩
abbrev S1024 : Shape := ⟨1, ![1024]⟩
abbrev S1024x1280 : Shape := ⟨2, ![1024, 1280]⟩
abbrev S1280 : Shape := ⟨1, ![1280]⟩
abbrev S1280x256 : Shape := ⟨2, ![1280, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S40000x1280 : Shape := ⟨2, ![40000, 1280]⟩
abbrev S10000x4096 : Shape := ⟨2, ![10000, 4096]⟩
abbrev S10000x1280 : Shape := ⟨2, ![10000, 1280]⟩
abbrev S10000x256 : Shape := ⟨2, ![10000, 256]⟩
abbrev S10000x128 : Shape := ⟨2, ![10000, 128]⟩
abbrev S200x4096 : Shape := ⟨2, ![200, 4096]⟩
abbrev S200x1280 : Shape := ⟨2, ![200, 1280]⟩
abbrev S200x256 : Shape := ⟨2, ![200, 256]⟩
abbrev S200x128 : Shape := ⟨2, ![200, 128]⟩
abbrev S200x1024 : Shape := ⟨2, ![200, 1024]⟩
abbrev S1x1024 : Shape := ⟨2, ![1, 1024]⟩
abbrev S1x1280 : Shape := ⟨2, ![1, 1280]⟩
abbrev S1x256 : Shape := ⟨2, ![1, 256]⟩
abbrev S1x128 : Shape := ⟨2, ![1, 128]⟩
abbrev S50000x1280 : Shape := ⟨2, ![50000, 1280]⟩
abbrev S50000x256 : Shape := ⟨2, ![50000, 256]⟩
abbrev S1000x1280 : Shape := ⟨2, ![1000, 1280]⟩
abbrev S1000x256 : Shape := ⟨2, ![1000, 256]⟩
abbrev S850000x256 : Shape := ⟨2, ![850000, 256]⟩
abbrev S1 : Shape := ⟨1, ![1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 120
  | .vmem => 32
  | .smem => 0
  | _ => 0

abbrev bufTy : (tb : Table) → Fin (tcTables nBuf tb) → BufTy
  | .hbm, ⟨0, _⟩ => ⟨S50000x4096, .f32⟩
  | .hbm, ⟨1, _⟩ => ⟨S2x800000, .i32⟩
  | .hbm, ⟨2, _⟩ => ⟨S50000, .i1⟩
  | .hbm, ⟨3, _⟩ => ⟨S4096x1024, .f32⟩
  | .hbm, ⟨4, _⟩ => ⟨S1024, .f32⟩
  | .hbm, ⟨5, _⟩ => ⟨S1024x1280, .f32⟩
  | .hbm, ⟨6, _⟩ => ⟨S1280, .f32⟩
  | .hbm, ⟨7, _⟩ => ⟨S1280x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1280x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S50000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S1x800000, .i32⟩
  | .hbm, ⟨22, _⟩ => ⟨S800000, .i32⟩
  | .hbm, ⟨23, _⟩ => ⟨S850000, .i32⟩
  | .hbm, ⟨24, _⟩ => ⟨S_, .f32⟩
  | .hbm, ⟨25, _⟩ => ⟨S850000, .f32⟩
  | .hbm, ⟨26, _⟩ => ⟨S_, .f32⟩
  | .hbm, ⟨27, _⟩ => ⟨S50000, .f32⟩
  | .hbm, ⟨28, _⟩ => ⟨S850000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S40000x1280, .f32⟩
  | .hbm, ⟨58, _⟩ => ⟨S10000x4096, .f32⟩
  | .hbm, ⟨59, _⟩ => ⟨S4096x1024, .bf16⟩
  | .hbm, ⟨60, _⟩ => ⟨S1024x1280, .bf16⟩
  | .hbm, ⟨61, _⟩ => ⟨S1280x256, .bf16⟩
  | .hbm, ⟨62, _⟩ => ⟨S256x128, .bf16⟩
  | .hbm, ⟨63, _⟩ => ⟨S10000x1280, .f32⟩
  | .hbm, ⟨64, _⟩ => ⟨S10000x256, .f32⟩
  | .hbm, ⟨65, _⟩ => ⟨S10000x128, .f32⟩
  | .hbm, ⟨66, _⟩ => ⟨S50000x1280, .f32⟩
  | .hbm, ⟨67, _⟩ => ⟨S50000x256, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x256, .f32⟩
  | .hbm, ⟨77, _⟩ => ⟨S850000x1, .f32⟩
  | .hbm, ⟨78, _⟩ => ⟨S850000x256, .f32⟩
  | .hbm, ⟨79, _⟩ => ⟨S850000x256, .f32⟩
  | .hbm, ⟨80, _⟩ => ⟨S_, .f32⟩
  | .hbm, ⟨81, _⟩ => ⟨S50000x256, .f32⟩
  | .hbm, ⟨82, _⟩ => ⟨S850000x1, .i32⟩
  | .hbm, ⟨83, _⟩ => ⟨S50000x256, .f32⟩
  | .hbm, ⟨84, _⟩ => ⟨S1x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S_, .i32⟩
  | .hbm, ⟨91, _⟩ => ⟨S1, .i32⟩
  | .hbm, ⟨92, _⟩ => ⟨S50000x256, .f32⟩
  | .hbm, ⟨93, _⟩ => ⟨S50000x128, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000x128, .f32⟩
  | .hbm, ⟨103, _⟩ => ⟨S850000x1, .f32⟩
  | .hbm, ⟨104, _⟩ => ⟨S850000x128, .f32⟩
  | .hbm, ⟨105, _⟩ => ⟨S850000x128, .f32⟩
  | .hbm, ⟨106, _⟩ => ⟨S_, .f32⟩
  | .hbm, ⟨107, _⟩ => ⟨S50000x128, .f32⟩
  | .hbm, ⟨108, _⟩ => ⟨S850000x1, .i32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S_, .f32⟩
  | .hbm, ⟨114, _⟩ => ⟨S50000x128, .f32⟩
  | .hbm, ⟨115, _⟩ => ⟨S50000x128, .f32⟩
  | .hbm, ⟨116, _⟩ => ⟨S_, .i32⟩
  | .hbm, ⟨117, _⟩ => ⟨S1, .i32⟩
  | .hbm, ⟨118, _⟩ => ⟨S50000x128, .f32⟩
  | .hbm, ⟨119, _⟩ => ⟨S50000x64, .f32⟩
  | .local _ .vmem, ⟨0, _⟩ => ⟨S200x4096, .f32⟩
  | .local _ .vmem, ⟨1, _⟩ => ⟨S200x4096, .f32⟩
  | .local _ .vmem, ⟨2, _⟩ => ⟨S4096x1024, .bf16⟩
  | .local _ .vmem, ⟨3, _⟩ => ⟨S1024, .f32⟩
  | .local _ .vmem, ⟨4, _⟩ => ⟨S1024x1280, .bf16⟩
  | .local _ .vmem, ⟨5, _⟩ => ⟨S1280, .f32⟩
  | .local _ .vmem, ⟨6, _⟩ => ⟨S1280x256, .bf16⟩
  | .local _ .vmem, ⟨7, _⟩ => ⟨S256, .f32⟩
  | .local _ .vmem, ⟨8, _⟩ => ⟨S256x128, .bf16⟩
  | .local _ .vmem, ⟨9, _⟩ => ⟨S128, .f32⟩
  | .local _ .vmem, ⟨10, _⟩ => ⟨S200x1280, .f32⟩
  | .local _ .vmem, ⟨11, _⟩ => ⟨S200x1280, .f32⟩
  | .local _ .vmem, ⟨12, _⟩ => ⟨S200x256, .f32⟩
  | .local _ .vmem, ⟨13, _⟩ => ⟨S200x256, .f32⟩
  | .local _ .vmem, ⟨14, _⟩ => ⟨S200x128, .f32⟩
  | .local _ .vmem, ⟨15, _⟩ => ⟨S200x128, .f32⟩
  | .local _ .vmem, ⟨16, _⟩ => ⟨S1000x1280, .f32⟩
  | .local _ .vmem, ⟨17, _⟩ => ⟨S1000x1280, .f32⟩
  | .local _ .vmem, ⟨18, _⟩ => ⟨S1280x256, .f32⟩
  | .local _ .vmem, ⟨19, _⟩ => ⟨S1000x256, .f32⟩
  | .local _ .vmem, ⟨20, _⟩ => ⟨S1000x256, .f32⟩
  | .local _ .vmem, ⟨21, _⟩ => ⟨S2000x256, .f32⟩
  | .local _ .vmem, ⟨22, _⟩ => ⟨S2000x256, .f32⟩
  | .local _ .vmem, ⟨23, _⟩ => ⟨S256x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x64, .f32⟩
  | .local _ .vmem, ⟨29, _⟩ => ⟨S64, .f32⟩
  | .local _ .vmem, ⟨30, _⟩ => ⟨S2000x64, .f32⟩
  | .local _ .vmem, ⟨31, _⟩ => ⟨S2000x64, .f32⟩
  | _, _ => ⟨S50000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36_0 : Ref sig .tc := ⟨.hbm, 63, rfl⟩
abbrev main_v36_1 : Ref sig .tc := ⟨.hbm, 64, rfl⟩
abbrev main_v36_2 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call1_cst : Ref sig .tc := ⟨.hbm, 87, rfl⟩
abbrev main_call1_v0 : Ref sig .tc := ⟨.hbm, 88, rfl⟩
abbrev main_v55 : Ref sig .tc := ⟨.hbm, 89, rfl⟩
abbrev main_c_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_v60 : Ref sig .tc := ⟨.hbm, 96, rfl⟩
abbrev main_c_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_12 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call2_cst : Ref sig .tc := ⟨.hbm, 113, rfl⟩
abbrev main_call2_v0 : Ref sig .tc := ⟨.hbm, 114, rfl⟩
abbrev main_v75 : Ref sig .tc := ⟨.hbm, 115, rfl⟩
abbrev main_c_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S200x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S200x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S50000x4096_S40000x1280_0_0 : S50000x4096.Slices ![0, 0] S40000x1280
  slices_S50000x4096_S10000x4096_40000_0 : S50000x4096.Slices ![40000, 0] S10000x4096
  bitsLt_bf16_f32 : FTy.bits .bf16 < FTy.bits .f32
  inb_S200x4096_S200x4096_0_0 : ∀ a, (![0, 0] : Fin 2 → Nat) a + S200x4096.size a ≤ S200x4096.size a
  h_S200x4096 : 0 < S200x4096.numel
  shapeCasts_S200x4096_S200x4096 : S200x4096.ShapeCasts S200x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S200x1024 : S1x1024.Broadcasts S200x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280_S1280_0 : ∀ a, (![0] : Fin 1 → Nat) a + S1280.size a ≤ S1280.size a
  h_S1280 : 0 < S1280.numel
  shapeCasts_S1280_S1x1280 : S1280.ShapeCasts S1x1280
  broadcasts_S1x1280_S200x1280 : S1x1280.Broadcasts S200x1280
  inb_S200x1280_S200x1280_0_0 : ∀ a, (![0, 0] : Fin 2 → Nat) a + S200x1280.size a ≤ S200x1280.size a
  h_S200x1280 : 0 < S200x1280.numel
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256_S256_0 : ∀ a, (![0] : Fin 1 → Nat) a + S256.size a ≤ S256.size a
  h_S256 : 0 < S256.numel
  shapeCasts_S256_S1x256 : S256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  concatenates_S40000x1280_S10000x1280_S50000x1280_d0 : Shape.Concatenates [S40000x1280, S10000x1280] S50000x1280 0
  inb_S1000x1280_S1000x1280_0_0 : ∀ a, (![0, 0] : Fin 2 → Nat) a + S1000x1280.size a ≤ S1000x1280.size a
  h_S1000x1280 : 0 < S1000x1280.numel
  shapeCasts_S1000x1280_S1000x1280 : S1000x1280.ShapeCasts S1000x1280
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S1 : S_.BroadcastsInDim S1 (![] : Fin 0 → Fin S1.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S200x4096_S4096x1024_S200x1024_1_0_0_1_n_n_wf : DotDims.WF S200x4096 S4096x1024 S200x1024 [1] [0] [0] [1] [] []
  dot_S200x1024_S1024x1280_S200x1280_1_0_0_1_n_n_wf : DotDims.WF S200x1024 S1024x1280 S200x1280 [1] [0] [0] [1] [] []
  dot_S200x1280_S1280x256_S200x256_1_0_0_1_n_n_wf : DotDims.WF S200x1280 S1280x256 S200x256 [1] [0] [0] [1] [] []
  dot_S200x256_S256x128_S200x128_1_0_0_1_n_n_wf : DotDims.WF S200x256 S256x128 S200x128 [1] [0] [0] [1] [] []
  dot_S1000x1280_S1280x256_S1000x256_1_0_0_1_n_n_wf : DotDims.WF S1000x1280 S1280x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S50000x256_S1_S10000x256_01_n_0_0_wf : ScatterDims.WF S50000x256 S1 S10000x256 [0, 1] [] [0] 0
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000x128_S1_S10000x128_01_n_0_0_wf : ScatterDims.WF S50000x128 S1 S10000x128 [0, 1] [] [0] 0
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x4096.size a ≤ S10000x4096.size a
  hwx0_0 : ∀ i : grid0.Coords, EltTy.bits .f32 = 32 ∨ (Rect.block (s := S10000x4096) S200x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1280.size a ≤ S1024x1280.size a
  hwx0_3 : ∀ i : grid0.Coords, EltTy.bits .bf16 = 32 ∨ (Rect.block (s := S1024x1280) S1024x1280.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280.size a ≤ S1280.size a
  hwx0_4 : ∀ i : grid0.Coords, EltTy.bits .f32 = 32 ∨ (Rect.block (s := S1280) S1280.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1280x256.size a ≤ S1280x256.size a
  hwx0_5 : ∀ i : grid0.Coords, EltTy.bits .bf16 = 32 ∨ (Rect.block (s := S1280x256) S1280x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x1280.size a ≤ S10000x1280.size a
  hwx0_9 : ∀ i : grid0.Coords, EltTy.bits .f32 = 32 ∨ (Rect.block (s := S10000x1280) S200x1280.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x256.size a ≤ S10000x256.size a
  hwx0_10 : ∀ i : grid0.Coords, EltTy.bits .f32 = 32 ∨ (Rect.block (s := S10000x256) S200x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S200x128.size a ≤ S10000x128.size a
  hwx0_11 : ∀ i : grid0.Coords, EltTy.bits .f32 = 32 ∨ (Rect.block (s := S10000x128) S200x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1280.size a ≤ S50000x1280.size a
  hwx1_0 : ∀ i : grid1.Coords, EltTy.bits .f32 = 32 ∨ (Rect.block (s := S50000x1280) S1000x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x256.size a ≤ S1280x256.size a
  hwx1_1 : ∀ i : grid1.Coords, EltTy.bits .f32 = 32 ∨ (Rect.block (s := S1280x256) S1280x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S200x4096_S4096x1024_S200x1024_1_0_0_1_n_n : DotDims S200x4096 S4096x1024 S200x1024 where
  lhsContracting := [1]
  rhsContracting := [0]
  lhsNonContracting := [0]
  rhsNonContracting := [1]
  lhsBatch := []
  rhsBatch := []
  wf := dot_S200x4096_S4096x1024_S200x1024_1_0_0_1_n_n_wf
def dot_S200x1024_S1024x1280_S200x1280_1_0_0_1_n_n : DotDims S200x1024 S1024x1280 S200x1280 where
  lhsContracting := [1]
  rhsContracting := [0]
  lhsNonContracting := [0]
  rhsNonContracting := [1]
  lhsBatch := []
  rhsBatch := []
  wf := dot_S200x1024_S1024x1280_S200x1280_1_0_0_1_n_n_wf
def dot_S200x1280_S1280x256_S200x256_1_0_0_1_n_n : DotDims S200x1280 S1280x256 S200x256 where
  lhsContracting := [1]
  rhsContracting := [0]
  lhsNonContracting := [0]
  rhsNonContracting := [1]
  lhsBatch := []
  rhsBatch := []
  wf := dot_S200x1280_S1280x256_S200x256_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def dot_S1000x1280_S1280x256_S1000x256_1_0_0_1_n_n : DotDims S1000x1280 S1280x256 S1000x256 where
  lhsContracting := [1]
  rhsContracting := [0]
  lhsNonContracting := [0]
  rhsNonContracting := [1]
  lhsBatch := []
  rhsBatch := []
  wf := dot_S1000x1280_S1280x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S50000x256_S1_S10000x256_01_n_0_0 : ScatterDims S50000x256 S1 S10000x256 where
  updateWindowDims := [0, 1]
  insertedWindowDims := []
  scatterDimsToOperandDims := [0]
  indexVectorDim := 0
  wf := scatter_S50000x256_S1_S10000x256_01_n_0_0_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000x128_S1_S10000x128_01_n_0_0 : ScatterDims S50000x128 S1 S10000x128 where
  updateWindowDims := [0, 1]
  insertedWindowDims := []
  scatterDimsToOperandDims := [0]
  indexVectorDim := 0
  wf := scatter_S50000x128_S1_S10000x128_01_n_0_0_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v31) S200x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1024x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1280x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36_0) S200x1280.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v36_1) S200x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v36_2) S200x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v37) S1000x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1280x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x4096 : Shape := ⟨2, ![50000, 4096]⟩
abbrev S2x800000 : Shape := ⟨2, ![2, 800000]⟩
abbrev S50000 : Shape := ⟨1, ![50000]⟩
abbrev S4096x1024 : Shape := ⟨2, ![4096, 1024]⟩
abbrev S1024 : Shape := ⟨1, ![1024]⟩
abbrev S1024x1280 : Shape := ⟨2, ![1024, 1280]⟩
abbrev S1280 : Shape := ⟨1, ![1280]⟩
abbrev S1280x256 : Shape := ⟨2, ![1280, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S40000x1280 : Shape := ⟨2, ![40000, 1280]⟩
abbrev S10000x4096 : Shape := ⟨2, ![10000, 4096]⟩
abbrev S10000x1024 : Shape := ⟨2, ![10000, 1024]⟩
abbrev S1x1024 : Shape := ⟨2, ![1, 1024]⟩
abbrev S_ : Shape := ⟨0, ![]⟩
abbrev S10000x1280 : Shape := ⟨2, ![10000, 1280]⟩
abbrev S1x1280 : Shape := ⟨2, ![1, 1280]⟩
abbrev S50000x1280 : Shape := ⟨2, ![50000, 1280]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S10000x256 : Shape := ⟨2, ![10000, 256]⟩
abbrev S1 : Shape := ⟨1, ![1]⟩
abbrev S50000x128 : Shape := ⟨2, ![50000, 128]⟩
abbrev S850000x128 : Shape := ⟨2, ![850000, 128]⟩
abbrev S1x128 : Shape := ⟨2, ![1, 128]⟩
abbrev S10000x128 : Shape := ⟨2, ![10000, 128]⟩
abbrev S50000x64 : Shape := ⟨2, ![50000, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S50000x4096, .f32⟩
  | 1 => ⟨S2x800000, .i32⟩
  | 2 => ⟨S50000, .i1⟩
  | 3 => ⟨S4096x1024, .f32⟩
  | 4 => ⟨S1024, .f32⟩
  | 5 => ⟨S1024x1280, .f32⟩
  | 6 => ⟨S1280, .f32⟩
  | 7 => ⟨S1280x256, .f32⟩
  | 8 => ⟨S256, .f32⟩
  | 9 => ⟨S256x128, .f32⟩
  | 10 => ⟨S128, .f32⟩
  | 11 => ⟨S1280x256, .f32⟩
  | 12 => ⟨S256, .f32⟩
  | 13 => ⟨S256x128, .f32⟩
  | 14 => ⟨S128, .f32⟩
  | 15 => ⟨S128x64, .f32⟩
  | 16 => ⟨S64, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S40000x1280, .f32⟩
  | 25 => ⟨S10000x4096, .f32⟩
  | 26 => ⟨S10000x1024, .f32⟩
  | 27 => ⟨S1x1024, .f32⟩
  | 28 => ⟨S10000x1024, .f32⟩
  | 29 => ⟨S10000x1024, .f32⟩
  | 30 => ⟨S_, .f32⟩
  | 31 => ⟨S10000x1024, .f32⟩
  | 32 => ⟨S10000x1024, .f32⟩
  | 33 => ⟨S10000x1280, .f32⟩
  | 34 => ⟨S1x1280, .f32⟩
  | 35 => ⟨S10000x1280, .f32⟩
  | 36 => ⟨S10000x1280, .f32⟩
  | 37 => ⟨S_, .f32⟩
  | 38 => ⟨S10000x1280, .f32⟩
  | 39 => ⟨S10000x1280, .f32⟩
  | 40 => ⟨S50000x1280, .f32⟩
  | 41 => ⟨S_, .f32⟩
  | 42 => ⟨S850000, .f32⟩
  | 43 => ⟨S_, .f32⟩
  | 44 => ⟨S50000, .f32⟩
  | 45 => ⟨S850000x1, .i32⟩
  | 46 => ⟨S50000, .f32⟩
  | 47 => ⟨S_, .f32⟩
  | 48 => ⟨S50000, .f32⟩
  | 49 => ⟨S50000, .i1⟩
  | 50 => ⟨S50000, .f32⟩
  | 51 => ⟨S_, .f32⟩
  | 52 => ⟨S_, .f32⟩
  | 53 => ⟨S50000, .f32⟩
  | 54 => ⟨S50000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S50000x256, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x256, .f32⟩
  | 84 => ⟨S850000x1, .f32⟩
  | 85 => ⟨S850000x256, .f32⟩
  | 86 => ⟨S850000x256, .f32⟩
  | 87 => ⟨S_, .f32⟩
  | 88 => ⟨S50000x256, .f32⟩
  | 89 => ⟨S850000x1, .i32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S10000x256, .f32⟩
  | 98 => ⟨S1x256, .f32⟩
  | 99 => ⟨S10000x256, .f32⟩
  | 100 => ⟨S10000x256, .f32⟩
  | 101 => ⟨S_, .i32⟩
  | 102 => ⟨S1, .i32⟩
  | 103 => ⟨S50000x256, .f32⟩
  | 104 => ⟨S_, .f32⟩
  | 105 => ⟨S850000, .f32⟩
  | 106 => ⟨S_, .f32⟩
  | 107 => ⟨S50000, .f32⟩
  | 108 => ⟨S850000x1, .i32⟩
  | 109 => ⟨S50000, .f32⟩
  | 110 => ⟨S_, .f32⟩
  | 111 => ⟨S50000, .f32⟩
  | 112 => ⟨S50000, .i1⟩
  | 113 => ⟨S50000, .f32⟩
  | 114 => ⟨S_, .f32⟩
  | 115 => ⟨S_, .f32⟩
  | 116 => ⟨S50000, .f32⟩
  | 117 => ⟨S50000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S_, .i32⟩
  | _ => ⟨S50000x4096, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S50000x128, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x128, .f32⟩
  | 19 => ⟨S850000x1, .f32⟩
  | 20 => ⟨S850000x128, .f32⟩
  | 21 => ⟨S850000x128, .f32⟩
  | 22 => ⟨S_, .f32⟩
  | 23 => ⟨S50000x128, .f32⟩
  | 24 => ⟨S850000x1, .i32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S10000x128, .f32⟩
  | 33 => ⟨S1x128, .f32⟩
  | 34 => ⟨S10000x128, .f32⟩
  | 35 => ⟨S10000x128, .f32⟩
  | 36 => ⟨S_, .i32⟩
  | 37 => ⟨S1, .i32⟩
  | 38 => ⟨S50000x128, .f32⟩
  | 39 => ⟨S50000x64, .f32⟩
  | 40 => ⟨S1x64, .f32⟩
  | 41 => ⟨S50000x64, .f32⟩
  | 42 => ⟨S50000x64, .f32⟩
  | _ => ⟨S50000x4096, .f32⟩

abbrev hbmTy (i : Nat) : BufTy := match i / 128 with
  | 0 => hbmTy0_0 i
  | 1 => hbmTy0_1 i
  | _ => ⟨S50000x4096, .f32⟩

abbrev bufTy : (tb : Table) → Fin (tcTables nBuf tb) → BufTy
  | .hbm, ⟨i, _⟩ => hbmTy i
  | _, _ => ⟨S50000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call0_cst : Ref sig .tc := ⟨.hbm, 30, rfl⟩
abbrev main_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_cst : Ref sig .tc := ⟨.hbm, 37, rfl⟩
abbrev main_call1_v0 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_v27 : Ref sig .tc := ⟨.hbm, 54, rfl⟩
abbrev main_c : Ref sig .tc := ⟨.hbm, 55, rfl⟩
abbrev main_v28 : Ref sig .tc := ⟨.hbm, 56, rfl⟩
abbrev main_v29 : Ref sig .tc := ⟨.hbm, 57, rfl⟩
abbrev main_c_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_4 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_6 : Ref sig .tc := ⟨.hbm, 75, rfl⟩
abbrev main_v44 : Ref sig .tc := ⟨.hbm, 76, rfl⟩
abbrev main_v45 : Ref sig .tc := ⟨.hbm, 77, rfl⟩
abbrev main_c_7 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call3_cst : Ref sig .tc := ⟨.hbm, 94, rfl⟩
abbrev main_call3_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_9 : Ref sig .tc := ⟨.hbm, 101, rfl⟩
abbrev main_v65 : Ref sig .tc := ⟨.hbm, 102, rfl⟩
abbrev main_v66 : Ref sig .tc := ⟨.hbm, 103, rfl⟩
abbrev main_cst_10 : Ref sig .tc := ⟨.hbm, 104, rfl⟩
abbrev main_v67 : Ref sig .tc := ⟨.hbm, 105, rfl⟩
abbrev main_cst_11 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_13 : Ref sig .tc := ⟨.hbm, 114, rfl⟩
abbrev main_call4_v0 : Ref sig .tc := ⟨.hbm, 115, rfl⟩
abbrev main_call4_v1 : Ref sig .tc := ⟨.hbm, 116, rfl⟩
abbrev main_v74 : Ref sig .tc := ⟨.hbm, 117, rfl⟩
abbrev main_c_14 : Ref sig .tc := ⟨.hbm, 118, rfl⟩
abbrev main_v75 : Ref sig .tc := ⟨.hbm, 119, rfl⟩
abbrev main_v76 : Ref sig .tc := ⟨.hbm, 120, rfl⟩
abbrev main_c_15 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_16 : Ref sig .tc := ⟨.hbm, 127, rfl⟩
abbrev main_v82 : Ref sig .tc := ⟨.hbm, 128, rfl⟩
abbrev main_v83 : Ref sig .tc := ⟨.hbm, 129, rfl⟩
abbrev main_c_17 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_18 : Ref sig .tc := ⟨.hbm, 138, rfl⟩
abbrev main_v91 : Ref sig .tc := ⟨.hbm, 139, rfl⟩
abbrev main_v92 : Ref sig .tc := ⟨.hbm, 140, rfl⟩
abbrev main_c_19 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_20 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_call5_cst : Ref sig .tc := ⟨.hbm, 157, rfl⟩
abbrev main_call5_v0 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_21 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  slices_S50000x4096_S40000x1280_0_0 : S50000x4096.Slices ![0, 0] S40000x1280
  slices_S50000x4096_S10000x4096_40000_0 : S50000x4096.Slices ![40000, 0] S10000x4096
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  bcast_S1280_S1x1280_1 : S1280.BroadcastsInDim S1x1280 (![1] : Fin 1 → Fin S1x1280.rank)
  bcast_S1x1280_S10000x1280_0_1 : S1x1280.BroadcastsInDim S10000x1280 (![0, 1] : Fin 2 → Fin S10000x1280.rank)
  bcast_S_S10000x1280 : S_.BroadcastsInDim S10000x1280 (![] : Fin 0 → Fin S10000x1280.rank)
  concatenates_S40000x1280_S10000x1280_S50000x1280_d0 : Shape.Concatenates [S40000x1280, S10000x1280] S50000x1280 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1x256_S10000x256_0_1 : S1x256.BroadcastsInDim S10000x256 (![0, 1] : Fin 2 → Fin S10000x256.rank)
  bcast_S_S1 : S_.BroadcastsInDim S1 (![] : Fin 0 → Fin S1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S10000x4096_S4096x1024_S10000x1024_1_0_0_1_n_n_wf : DotDims.WF S10000x4096 S4096x1024 S10000x1024 [1] [0] [0] [1] [] []
  dot_S10000x1024_S1024x1280_S10000x1280_1_0_0_1_n_n_wf : DotDims.WF S10000x1024 S1024x1280 S10000x1280 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1280_S1280x256_S50000x256_1_0_0_1_n_n_wf : DotDims.WF S50000x1280 S1280x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S10000x1280_S1280x256_S10000x256_1_0_0_1_n_n_wf : DotDims.WF S10000x1280 S1280x256 S10000x256 [1] [0] [0] [1] [] []
  scatter_S50000x256_S1_S10000x256_01_n_0_0_wf : ScatterDims.WF S50000x256 S1 S10000x256 [0, 1] [] [0] 0
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x256_S256x128_S10000x128_1_0_0_1_n_n_wf : DotDims.WF S10000x256 S256x128 S10000x128 [1] [0] [0] [1] [] []
  scatter_S50000x128_S1_S10000x128_01_n_0_0_wf : ScatterDims.WF S50000x128 S1 S10000x128 [0, 1] [] [0] 0
  dot_S50000x128_S128x64_S50000x64_1_0_0_1_n_n_wf : DotDims.WF S50000x128 S128x64 S50000x64 [1] [0] [0] [1] [] []

variable [Facts₀]

def dot_S10000x4096_S4096x1024_S10000x1024_1_0_0_1_n_n : DotDims S10000x4096 S4096x1024 S10000x1024 where
  lhsContracting := [1]
  rhsContracting := [0]
  lhsNonContracting := [0]
  rhsNonContracting := [1]
  lhsBatch := []
  rhsBatch := []
  wf := dot_S10000x4096_S4096x1024_S10000x1024_1_0_0_1_n_n_wf
def dot_S10000x1024_S1024x1280_S10000x1280_1_0_0_1_n_n : DotDims S10000x1024 S1024x1280 S10000x1280 where
  lhsContracting := [1]
  rhsContracting := [0]
  lhsNonContracting := [0]
  rhsNonContracting := [1]
  lhsBatch := []
  rhsBatch := []
  wf := dot_S10000x1024_S1024x1280_S10000x1280_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1280_S1280x256_S50000x256_1_0_0_1_n_n : DotDims S50000x1280 S1280x256 S50000x256 where
  lhsContracting := [1]
  rhsContracting := [0]
  lhsNonContracting := [0]
  rhsNonContracting := [1]
  lhsBatch := []
  rhsBatch := []
  wf := dot_S50000x1280_S1280x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S10000x1280_S1280x256_S10000x256_1_0_0_1_n_n : DotDims S10000x1280 S1280x256 S10000x256 where
  lhsContracting := [1]
  rhsContracting := [0]
  lhsNonContracting := [0]
  rhsNonContracting := [1]
  lhsBatch := []
  rhsBatch := []
  wf := dot_S10000x1280_S1280x256_S10000x256_1_0_0_1_n_n_wf
def scatter_S50000x256_S1_S10000x256_01_n_0_0 : ScatterDims S50000x256 S1 S10000x256 where
  updateWindowDims := [0, 1]
  insertedWindowDims := []
  scatterDimsToOperandDims := [0]
  indexVectorDim := 0
  wf := scatter_S50000x256_S1_S10000x256_01_n_0_0_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S50000x128_S1_S10000x128_01_n_0_0 : ScatterDims S50000x128 S1 S10000x128 where
  updateWindowDims := [0, 1]
  insertedWindowDims := []
  scatterDimsToOperandDims := [0]
  indexVectorDim := 0
  wf := scatter_S50000x128_S1_S10000x128_01_n_0_0_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The specification, free of any program: the three array functions out of which both sides of this certificate
  are built at the exact extended reals.

  A graph-convolution network of two layers is, apart from operations the two programs share verbatim (edge lists,
  degrees, normalisation, gathers, scatter-additions, the row assignment of the projected rows), a chain of dense
  layers: a matrix product, possibly plus a bias row laid along every row, possibly followed by the maximum with zero.
  These are stated once here, as functions on whole arrays, entry by entry.
-/
import Idealize.ShloMosaic.Lib.ValueIdx
import Idealize.ShloMosaic.Lib.ValueIdxCoords
import Idealize.ShloMosaic.PureOps.Ideal

noncomputable section

open scoped BigOperators

namespace Cert.Gcn

open Idealize.ShloMosaic Idealize.ShloMosaic.ValueIdx

/-- The matrix product of an `[R, K]` array and a `[K, N]` array: entry `(p, j)` is `∑ k, A (p, k) · W (k, j)`. -/
def linArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0 : Fin R) k) * W (ix2 k (i 1 : Fin N))

/-- A dense layer: the matrix product plus the bias vector `b` added to every row. -/
def affineArr {R K N : ℕ} (A : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => linArr A W i + b (ix1 (i 1 : Fin N))

/-- The maximum with zero, entry by entry. -/
def reluArr {s : Shape} (v : s.Idx → EReal) : s.Idx → EReal := fun i => max (v i) 0

theorem linArr_apply {R K N : ℕ} (A : (⟨2, ![R, K]⟩ : Shape).Idx → EReal) (W : (⟨2, ![K, N]⟩ : Shape).Idx → EReal)
    (p : Fin R) (j : Fin N) : linArr A W (ix2 p j) = ∑ k : Fin K, A (ix2 p k) * W (ix2 k j) := rfl

theorem affineArr_apply {R K N : ℕ} (A : (⟨2, ![R, K]⟩ : Shape).Idx → EReal) (W : (⟨2, ![K, N]⟩ : Shape).Idx → EReal)
    (b : (⟨1, ![N]⟩ : Shape).Idx → EReal) (p : Fin R) (j : Fin N) :
    affineArr A W b (ix2 p j) = ∑ k : Fin K, A (ix2 p k) * W (ix2 k j) + b (ix1 j) := rfl

theorem reluArr_apply {s : Shape} (v : s.Idx → EReal) (i : s.Idx) : reluArr v i = max (v i) 0 := rfl

end Cert.Gcn

end
-- ==== Proof.ChainK.lean ====
/-
  The operations of the network that are not dense layers, named once more — over the KERNEL program's own shapes and
  dimension records.

  The kernel's @main and the reference's @main print the same host operations (the extended edge list, the degrees, the
  edge weights, the gather–scale–scatter-add of a convolution, the replacement of the last 10000 rows), each over its own
  copy of the shape names and dimension records. The kernel's boundary contents are read in the kernel's spelling, so the
  operations are named here in that spelling; that the two spellings denote the same functions is a separate, small
  statement (the records are the same literals). The operations are stated at any reading of the floats; only the
  network itself, whose dense layers are the specification's, is stated at the exact extended reals.
-/
import proofs.«141848_j79654463472115_1_alg».proof.Proof.Gen.KernelIdeal
import proofs.«141848_j79654463472115_1_alg».proof.Proof.Spec

noncomputable section

namespace Cert.Gcn.ChainK

open Cert.KernelIdeal Cert.KernelIdeal.Gen Idealize.ShloMosaic Idealize.SL.Sem

variable {F : FTy → Type} [FloatOps F]

/-- The edge list: row 0 the sources, row 1 the targets. -/
abbrev Edges (F : FTy → Type) := (⟨S2x800000, .i32⟩ : BufTy).Contents (Elt F)
/-- One node number per extended edge. -/
abbrev Ix (F : FTy → Type) := (⟨S850000, .i32⟩ : BufTy).Contents (Elt F)

/-- The sources of the extended edges: row 0 of the edge list, then every node once (its self-loop). -/
def src (ei : Edges F) : Ix F :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The targets of the extended edges: row 1 of the edge list, then every node once. -/
def dst (ei : Edges F) : Ix F :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number counts from the end: 50000 is added to it. -/
def wrapIdx (v : Ix F) : Ix F :=
  select (cmpi .slt v (broadcastInDim S850000 ![] bcast_S_S850000 (constantI S_ 32 0#32))) (addi v (broadcastInDim S850000 ![] bcast_S_S850000 (constantI S_ 32 50000#32))) v

/-- The degree of every node: one added at the target of every extended edge. -/
def deg (ei : Edges F) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dst ei)) (broadcastInDim S850000 ![] bcast_S_S850000 (constant S_ .f32 0x3F800000#32))

/-- The inverse square root of the degree where the degree is positive, zero elsewhere. -/
def dinv (ei : Edges F) : FVec F S50000 .f32 :=
  select (cmpf (F := F) .ogt (deg ei) (broadcastInDim S50000 ![] bcast_S_S50000 (constant S_ .f32 0x00000000#32))) (Host.rsqrt (deg ei)) (broadcastInDim S50000 ![] bcast_S_S50000 (id (constant S_ .f32 0x00000000#32)))

/-- The weight of every extended edge: the product of `dinv` at its source and at its target. -/
def norm (ei : Edges F) : FVec F S850000 .f32 :=
  mulf (Host.gather gather_S50000_S850000x1_S850000_n_0_n_n_0_1_1 (dinv ei) (broadcastInDim S850000x1 ![0] bcast_S850000_S850000x1_0 (wrapIdx (src ei)))) (Host.gather gather_S50000_S850000x1_S850000_n_0_n_n_0_1_1 (dinv ei) (broadcastInDim S850000x1 ![0] bcast_S850000_S850000x1_0 (wrapIdx (dst ei))))

/-- The convolution at 256 columns: the weighted rows of the sources added into the rows of the targets, plus the
    bias row, maximum with zero. -/
def conv256 (xw : FVec F S50000x256 .f32) (ei : Edges F) (b : FVec F S256 .f32) : FVec F S50000x256 .f32 :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 (dst ei)) (mulf (Host.gather gather_S50000x256_S850000x1_S850000x256_1_0_n_n_0_1_1256 xw (broadcastInDim S850000x1 ![0] bcast_S850000_S850000x1_0 (wrapIdx (src ei)))) (broadcastInDim S850000x256 ![0, 1] bcast_S850000x1_S850000x256_0_1 (broadcastInDim S850000x1 ![0] bcast_S850000_S850000x1_0 (norm ei))))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The convolution at 128 columns. -/
def conv128 (xw : FVec F S50000x128 .f32) (ei : Edges F) (b : FVec F S128 .f32) : FVec F S50000x128 .f32 :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (dst ei)) (mulf (Host.gather gather_S50000x128_S850000x1_S850000x128_1_0_n_n_0_1_1128 xw (broadcastInDim S850000x1 ![0] bcast_S850000_S850000x1_0 (wrapIdx (src ei)))) (broadcastInDim S850000x128 ![0, 1] bcast_S850000x1_S850000x128_0_1 (broadcastInDim S850000x1 ![0] bcast_S850000_S850000x1_0 (norm ei))))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Rows 40000 to 49999 of `h` replaced by the rows of `p` (256 columns). -/
def setTail256 (h : FVec F S50000x256 .f32) (p : FVec F S10000x256 .f32) : FVec F S50000x256 .f32 :=
  Host.scatter scatter_S50000x256_S1_S10000x256_01_n_0_0 (fun _ b => b) h (broadcastInDim S1 ![] bcast_S_S1 (constantI S_ 32 40000#32)) p

/-- Rows 40000 to 49999 of `h` replaced by the rows of `p` (128 columns). -/
def setTail128 (h : FVec F S50000x128 .f32) (p : FVec F S10000x128 .f32) : FVec F S50000x128 .f32 :=
  Host.scatter scatter_S50000x128_S1_S10000x128_01_n_0_0 (fun _ b => b) h (broadcastInDim S1 ![] bcast_S_S1 (constantI S_ 32 40000#32)) p

/-- The first 40000 rows of the input, their first 1280 columns. -/
def geneX (x : FVec F S50000x4096 .f32) : FVec F S40000x1280 .f32 :=
  extractStridedSlice S40000x1280 ![0, 0] x slices_S50000x4096_S40000x1280_0_0

/-- The last 10000 rows of the input, all 4096 columns. -/
def goidX (x : FVec F S50000x4096 .f32) : FVec F S10000x4096 .f32 :=
  extractStridedSlice S10000x4096 ![40000, 0] x slices_S50000x4096_S10000x4096_40000_0

/-- The node features: the first 40000 rows' 1280 columns, then the 10000 rows `g`. -/
def xt (x : FVec F S50000x4096 .f32) (g : FVec F S10000x1280 .f32) : FVec F S50000x1280 .f32 :=
  concatenate S50000x1280 0 [⟨S40000x1280, (geneX x)⟩, ⟨S10000x1280, g⟩] concatenates_S40000x1280_S10000x1280_S50000x1280_d0

/-- The whole network: dense layers by the specification, the rest by the operations above. -/
def net (x : FVec Ideal S50000x4096 .f32) (ei : Edges Ideal)
    (Wd1 : FVec Ideal S4096x1024 .f32) (bd1 : FVec Ideal S1024 .f32)
    (Wd2 : FVec Ideal S1024x1280 .f32) (bd2 : FVec Ideal S1280 .f32)
    (W1 : FVec Ideal S1280x256 .f32) (b1 : FVec Ideal S256 .f32)
    (W2 : FVec Ideal S256x128 .f32) (b2 : FVec Ideal S128 .f32)
    (Wp1 : FVec Ideal S1280x256 .f32) (bp1 : FVec Ideal S256 .f32)
    (Wp2 : FVec Ideal S256x128 .f32) (bp2 : FVec Ideal S128 .f32)
    (Wf : FVec Ideal S128x64 .f32) (bf : FVec Ideal S64 .f32) : FVec Ideal S50000x64 .f32 :=
  let g  := reluArr (affineArr (reluArr (affineArr (goidX x) Wd1 bd1)) Wd2 bd2)
  let p1 := affineArr g Wp1 bp1
  let p2 := affineArr p1 Wp2 bp2
  let h1 := setTail256 (conv256 (linArr (xt x g) W1) ei b1) p1
  let h2 := setTail128 (conv128 (linArr h1 W2) ei b2) p2
  affineArr h2 Wf bf

end Cert.Gcn.ChainK

end
-- ==== Proof.KTactics.lean ====
/-
  Two small tactics for walking a buffer back through @main's boundaries.

  The buffer contents at a boundary are those of the previous boundary after a stretch of host operations; a buffer that
  no operation of the stretch writes holds what it held before. `keep_stretch ops` proves such an equation
  `after ops V b = V b` for a literal stretch `ops` and a literal buffer `b`: every operation writes exactly its result
  buffer, and that buffer is another one (decided on the references).
-/
import proofs.«141848_j79654463472115_1_alg».proof.Proof.Gen.KernelIdeal.Frame

namespace Cert.KernelIdeal.Keep

open Idealize.ShloMosaic

/-- `after ops V b = V b` when no operation of the literal stretch `ops` writes the literal buffer `b`. -/
macro "keep_stretch " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KernelIdeal.Keep
-- ==== Proof.KCarry.lean ====
/-
  Buffers that a stretch of @main leaves alone.

  Between two boundaries of the idealized kernel's @main a buffer that no host operation of the stretch writes, and that
  is no array of the region crossed, holds what it held before. These are the instances the value of the result needs:
  the extended edge lists and the edge weights (computed once, before the first region, and read again by both
  aggregations), the rows projected by the first region (read after the second and after the third), the first 40000
  rows' slice, and the weight and bias arguments at the boundary where each is read.
-/
import proofs.«141848_j79654463472115_1_alg».proof.Proof.Gen.KernelIdeal.Frame
import proofs.«141848_j79654463472115_1_alg».proof.Proof.KTactics

set_option maxRecDepth 16384

noncomputable section

namespace Cert.KernelIdeal.Carry

open Cert.KernelIdeal Cert.KernelIdeal.Gen Cert.KernelIdeal.Keep
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem W4_v30 : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

theorem W5_arg7 : W5 m ρ c (Proc.devRef .tc main_arg7) = m ((c : Thread nD τ).loc main_arg7) :=
  calc W5 m ρ c (Proc.devRef .tc main_arg7)
    _ = W4 m ρ c (Proc.devRef .tc main_arg7) := by keep_stretch hostOps1
    _ = W3 m ρ c (Proc.devRef .tc main_arg7) := W4_of_ne m ρ c main_arg7 (by decide)
    _ = W2 m ρ c (Proc.devRef .tc main_arg7) := by keep_stretch hostOps0_2
    _ = W1 m ρ c (Proc.devRef .tc main_arg7) := by keep_stretch hostOps0_1
    _ = W0 m ρ c (Proc.devRef .tc main_arg7) := by keep_stretch hostOps0
    _ = m ((c : Thread nD τ).loc main_arg7) := rfl

theorem W6_v3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by keep_stretch hostOps1
    _ = W3 m ρ c (Proc.devRef .tc main_v3) := W4_of_ne m ρ c main_v3 (by decide)

theorem W6_v6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by keep_stretch hostOps1
    _ = W3 m ρ c (Proc.devRef .tc main_v6) := W4_of_ne m ρ c main_v6 (by decide)

theorem W6_v29 : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by keep_stretch hostOps1
    _ = W3 m ρ c (Proc.devRef .tc main_v29) := W4_of_ne m ρ c main_v29 (by decide)

theorem W6_arg8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by keep_stretch hostOps1
    _ = W3 m ρ c (Proc.devRef .tc main_arg8) := W4_of_ne m ρ c main_arg8 (by decide)
    _ = W2 m ρ c (Proc.devRef .tc main_arg8) := by keep_stretch hostOps0_2
    _ = W1 m ρ c (Proc.devRef .tc main_arg8) := by keep_stretch hostOps0_1
    _ = W0 m ρ c (Proc.devRef .tc main_arg8) := by keep_stretch hostOps0
    _ = m ((c : Thread nD τ).loc main_arg8) := rfl

theorem W6_v36_1 : W6 m ρ c (Proc.devRef .tc main_v36_1) = W4 m ρ c (Proc.devRef .tc main_v36_1) :=
  calc W6 m ρ c (Proc.devRef .tc main_v36_1)
    _ = W5 m ρ c (Proc.devRef .tc main_v36_1) := W6_of_ne m ρ c main_v36_1 (by decide)
    _ = W4 m ρ c (Proc.devRef .tc main_v36_1) := by keep_stretch hostOps1

theorem W9_arg9 : W9 m ρ c (Proc.devRef .tc main_arg9) = m ((c : Thread nD τ).loc main_arg9) :=
  calc W9 m ρ c (Proc.devRef .tc main_arg9)
    _ = W8 m ρ c (Proc.devRef .tc main_arg9) := by keep_stretch hostOps2_2
    _ = W7 m ρ c (Proc.devRef .tc main_arg9) := by keep_stretch hostOps2_1
    _ = W6 m ρ c (Proc.devRef .tc main_arg9) := by keep_stretch hostOps2
    _ = W5 m ρ c (Proc.devRef .tc main_arg9) := W6_of_ne m ρ c main_arg9 (by decide)
    _ = W4 m ρ c (Proc.devRef .tc main_arg9) := by keep_stretch hostOps1
    _ = W3 m ρ c (Proc.devRef .tc main_arg9) := W4_of_ne m ρ c main_arg9 (by decide)
    _ = W2 m ρ c (Proc.devRef .tc main_arg9) := by keep_stretch hostOps0_2
    _ = W1 m ρ c (Proc.devRef .tc main_arg9) := by keep_stretch hostOps0_1
    _ = W0 m ρ c (Proc.devRef .tc main_arg9) := by keep_stretch hostOps0
    _ = m ((c : Thread nD τ).loc main_arg9) := rfl

theorem W10_v3 : W10 m ρ c (Proc.devRef .tc main_v3) = W6 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by keep_stretch hostOps2_2
    _ = W7 m ρ c (Proc.devRef .tc main_v3) := by keep_stretch hostOps2_1
    _ = W6 m ρ c (Proc.devRef .tc main_v3) := by keep_stretch hostOps2

theorem W10_v6 : W10 m ρ c (Proc.devRef .tc main_v6) = W6 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by keep_stretch hostOps2_2
    _ = W7 m ρ c (Proc.devRef .tc main_v6) := by keep_stretch hostOps2_1
    _ = W6 m ρ c (Proc.devRef .tc main_v6) := by keep_stretch hostOps2

theorem W10_v29 : W10 m ρ c (Proc.devRef .tc main_v29) = W6 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := by keep_stretch hostOps2_2
    _ = W7 m ρ c (Proc.devRef .tc main_v29) := by keep_stretch hostOps2_1
    _ = W6 m ρ c (Proc.devRef .tc main_v29) := by keep_stretch hostOps2

theorem W10_arg10 : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by keep_stretch hostOps2_2
    _ = W7 m ρ c (Proc.devRef .tc main_arg10) := by keep_stretch hostOps2_1
    _ = W6 m ρ c (Proc.devRef .tc main_arg10) := by keep_stretch hostOps2
    _ = W5 m ρ c (Proc.devRef .tc main_arg10) := W6_of_ne m ρ c main_arg10 (by decide)
    _ = W4 m ρ c (Proc.devRef .tc main_arg10) := by keep_stretch hostOps1
    _ = W3 m ρ c (Proc.devRef .tc main_arg10) := W4_of_ne m ρ c main_arg10 (by decide)
    _ = W2 m ρ c (Proc.devRef .tc main_arg10) := by keep_stretch hostOps0_2
    _ = W1 m ρ c (Proc.devRef .tc main_arg10) := by keep_stretch hostOps0_1
    _ = W0 m ρ c (Proc.devRef .tc main_arg10) := by keep_stretch hostOps0
    _ = m ((c : Thread nD τ).loc main_arg10) := rfl

theorem W10_v36_2 : W10 m ρ c (Proc.devRef .tc main_v36_2) = W4 m ρ c (Proc.devRef .tc main_v36_2) :=
  calc W10 m ρ c (Proc.devRef .tc main_v36_2)
    _ = W9 m ρ c (Proc.devRef .tc main_v36_2) := W10_of_ne m ρ c main_v36_2 (by decide)
    _ = W8 m ρ c (Proc.devRef .tc main_v36_2) := by keep_stretch hostOps2_2
    _ = W7 m ρ c (Proc.devRef .tc main_v36_2) := by keep_stretch hostOps2_1
    _ = W6 m ρ c (Proc.devRef .tc main_v36_2) := by keep_stretch hostOps2
    _ = W5 m ρ c (Proc.devRef .tc main_v36_2) := W6_of_ne m ρ c main_v36_2 (by decide)
    _ = W4 m ρ c (Proc.devRef .tc main_v36_2) := by keep_stretch hostOps1

theorem W13_arg15 : W13 m ρ c (Proc.devRef .tc main_arg15) = m ((c : Thread nD τ).loc main_arg15) :=
  calc W13 m ρ c (Proc.devRef .tc main_arg15)
    _ = W12 m ρ c (Proc.devRef .tc main_arg15) := by keep_stretch hostOps3_2
    _ = W11 m ρ c (Proc.devRef .tc main_arg15) := by keep_stretch hostOps3_1
    _ = W10 m ρ c (Proc.devRef .tc main_arg15) := by keep_stretch hostOps3
    _ = W9 m ρ c (Proc.devRef .tc main_arg15) := W10_of_ne m ρ c main_arg15 (by decide)
    _ = W8 m ρ c (Proc.devRef .tc main_arg15) := by keep_stretch hostOps2_2
    _ = W7 m ρ c (Proc.devRef .tc main_arg15) := by keep_stretch hostOps2_1
    _ = W6 m ρ c (Proc.devRef .tc main_arg15) := by keep_stretch hostOps2
    _ = W5 m ρ c (Proc.devRef .tc main_arg15) := W6_of_ne m ρ c main_arg15 (by decide)
    _ = W4 m ρ c (Proc.devRef .tc main_arg15) := by keep_stretch hostOps1
    _ = W3 m ρ c (Proc.devRef .tc main_arg15) := W4_of_ne m ρ c main_arg15 (by decide)
    _ = W2 m ρ c (Proc.devRef .tc main_arg15) := by keep_stretch hostOps0_2
    _ = W1 m ρ c (Proc.devRef .tc main_arg15) := by keep_stretch hostOps0_1
    _ = W0 m ρ c (Proc.devRef .tc main_arg15) := by keep_stretch hostOps0
    _ = m ((c : Thread nD τ).loc main_arg15) := rfl

theorem W13_arg16 : W13 m ρ c (Proc.devRef .tc main_arg16) = m ((c : Thread nD τ).loc main_arg16) :=
  calc W13 m ρ c (Proc.devRef .tc main_arg16)
    _ = W12 m ρ c (Proc.devRef .tc main_arg16) := by keep_stretch hostOps3_2
    _ = W11 m ρ c (Proc.devRef .tc main_arg16) := by keep_stretch hostOps3_1
    _ = W10 m ρ c (Proc.devRef .tc main_arg16) := by keep_stretch hostOps3
    _ = W9 m ρ c (Proc.devRef .tc main_arg16) := W10_of_ne m ρ c main_arg16 (by decide)
    _ = W8 m ρ c (Proc.devRef .tc main_arg16) := by keep_stretch hostOps2_2
    _ = W7 m ρ c (Proc.devRef .tc main_arg16) := by keep_stretch hostOps2_1
    _ = W6 m ρ c (Proc.devRef .tc main_arg16) := by keep_stretch hostOps2
    _ = W5 m ρ c (Proc.devRef .tc main_arg16) := W6_of_ne m ρ c main_arg16 (by decide)
    _ = W4 m ρ c (Proc.devRef .tc main_arg16) := by keep_stretch hostOps1
    _ = W3 m ρ c (Proc.devRef .tc main_arg16) := W4_of_ne m ρ c main_arg16 (by decide)
    _ = W2 m ρ c (Proc.devRef .tc main_arg16) := by keep_stretch hostOps0_2
    _ = W1 m ρ c (Proc.devRef .tc main_arg16) := by keep_stretch hostOps0_1
    _ = W0 m ρ c (Proc.devRef .tc main_arg16) := by keep_stretch hostOps0
    _ = m ((c : Thread nD τ).loc main_arg16) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := by keep_stretch hostOps0_2
    _ = W1 m ρ c (Proc.devRef .tc main_arg4) := by keep_stretch hostOps0_1
    _ = W0 m ρ c (Proc.devRef .tc main_arg4) := by keep_stretch hostOps0
    _ = m ((c : Thread nD τ).loc main_arg4) := rfl

theorem W3_arg6 : W3 m ρ c (Proc.devRef .tc main_arg6) = m ((c : Thread nD τ).loc main_arg6) :=
  calc W3 m ρ c (Proc.devRef .tc main_arg6)
    _ = W2 m ρ c (Proc.devRef .tc main_arg6) := by keep_stretch hostOps0_2
    _ = W1 m ρ c (Proc.devRef .tc main_arg6) := by keep_stretch hostOps0_1
    _ = W0 m ρ c (Proc.devRef .tc main_arg6) := by keep_stretch hostOps0
    _ = m ((c : Thread nD τ).loc main_arg6) := rfl

theorem W3_arg12 : W3 m ρ c (Proc.devRef .tc main_arg12) = m ((c : Thread nD τ).loc main_arg12) :=
  calc W3 m ρ c (Proc.devRef .tc main_arg12)
    _ = W2 m ρ c (Proc.devRef .tc main_arg12) := by keep_stretch hostOps0_2
    _ = W1 m ρ c (Proc.devRef .tc main_arg12) := by keep_stretch hostOps0_1
    _ = W0 m ρ c (Proc.devRef .tc main_arg12) := by keep_stretch hostOps0
    _ = m ((c : Thread nD τ).loc main_arg12) := rfl

theorem W3_arg14 : W3 m ρ c (Proc.devRef .tc main_arg14) = m ((c : Thread nD τ).loc main_arg14) :=
  calc W3 m ρ c (Proc.devRef .tc main_arg14)
    _ = W2 m ρ c (Proc.devRef .tc main_arg14) := by keep_stretch hostOps0_2
    _ = W1 m ρ c (Proc.devRef .tc main_arg14) := by keep_stretch hostOps0_1
    _ = W0 m ρ c (Proc.devRef .tc main_arg14) := by keep_stretch hostOps0
    _ = m ((c : Thread nD τ).loc main_arg14) := rfl

end Cert.KernelIdeal.Carry

end
-- ==== Proof.KRead.lean ====
/-
  Reading a buffer off a fold of host operations.

  The contents of a buffer after a literal stretch of host operations are the function of the operation that wrote it,
  applied to the contents of its operands before it — and so on down to the valuation the stretch started from.
  `read_results` unfolds a goal `after ops V b = …` that way: one simplification pass over the whole term where that
  reaches, and single rewriting steps with the same facts where it does not (below the pieces of a stacking).
-/
import Idealize.ShloMosaic.Lib.StableHlo.Run

namespace Cert.KernelIdeal.Keep

open Idealize.ShloMosaic

/-- Rewrite every `(op).result V b` of a goal to the operation's function of its operands' contents (at its own
    result buffer) or to `V b` (at another buffer), until none is left. -/
macro "read_results" : tactic =>
  `(tactic| repeat (first
      | after_results_simp
      | rw [StableHlo.nullary_result] | rw [StableHlo.unary_result] | rw [StableHlo.binary_result]
      | rw [StableHlo.ternary_result] | rw [StableHlo.quaternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.quaternary_result_ne]; rotate_left; decide)
      | (rw [StableHlo.reshape_result_ne]; rotate_left; decide)))

end Cert.KernelIdeal.Keep
-- ==== Proof.KPrologue.lean ====
/-
  What the kernel's prologue leaves where the first region is entered.

  Before its first region the kernel's @main computes, from the edge list, the sources and the targets of the extended
  edges and the weight of every extended edge (the product of the inverse square roots of the degrees of its ends), and
  from the input the two slices the network reads: the first 40000 rows' first 1280 columns and the last 10000 rows. It
  also passes four weight matrices through a change of float format. Each is read here off the fold of the prologue's
  host operations, as the operation named in the chain module — at any reading of the floats: nothing here depends on
  what a float is.
-/
import proofs.«141848_j79654463472115_1_alg».proof.Proof.Gen.KernelIdeal.Frame
import proofs.«141848_j79654463472115_1_alg».proof.Proof.ChainK
import proofs.«141848_j79654463472115_1_alg».proof.Proof.KRead

set_option maxRecDepth 16384

noncomputable section

namespace Cert.KernelIdeal.Prologue

open Cert.KernelIdeal Cert.KernelIdeal.Gen Cert.KernelIdeal.Keep Cert.Gcn
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- The sources of the extended edges. -/
theorem W3_v3 : W3 m ρ c (Proc.devRef .tc main_v3) = ChainK.src (m ((c : Thread nD τ).loc main_arg1)) := by
  show StableHlo.after hostOps0_2 (StableHlo.after hostOps0_1 (StableHlo.after hostOps0 (W0 m ρ c))) (Proc.devRef .tc main_v3) = _
  have h0 : W0 m ρ c (Proc.devRef .tc main_arg1) = m ((c : Thread nD τ).loc main_arg1) := rfl
  generalize W0 m ρ c = U at h0 ⊢
  simp only [hostOps0, hostOps0_1, hostOps0_2]
  read_results
  rw [h0]
  rfl

/-- The targets of the extended edges. -/
theorem W3_v6 : W3 m ρ c (Proc.devRef .tc main_v6) = ChainK.dst (m ((c : Thread nD τ).loc main_arg1)) := by
  show StableHlo.after hostOps0_2 (StableHlo.after hostOps0_1 (StableHlo.after hostOps0 (W0 m ρ c))) (Proc.devRef .tc main_v6) = _
  have h0 : W0 m ρ c (Proc.devRef .tc main_arg1) = m ((c : Thread nD τ).loc main_arg1) := rfl
  generalize W0 m ρ c = U at h0 ⊢
  simp only [hostOps0, hostOps0_1, hostOps0_2]
  read_results
  rw [h0]
  rfl

/-- The sources, before the last stretch of the prologue. -/
theorem W2_v3 : W2 m ρ c (Proc.devRef .tc main_v3) = ChainK.src (m ((c : Thread nD τ).loc main_arg1)) := by
  show StableHlo.after hostOps0_1 (StableHlo.after hostOps0 (W0 m ρ c)) (Proc.devRef .tc main_v3) = _
  have h0 : W0 m ρ c (Proc.devRef .tc main_arg1) = m ((c : Thread nD τ).loc main_arg1) := rfl
  generalize W0 m ρ c = U at h0 ⊢
  simp only [hostOps0, hostOps0_1]
  read_results
  rw [h0]
  rfl

/-- The targets, there. -/
theorem W2_v6 : W2 m ρ c (Proc.devRef .tc main_v6) = ChainK.dst (m ((c : Thread nD τ).loc main_arg1)) := by
  show StableHlo.after hostOps0_1 (StableHlo.after hostOps0 (W0 m ρ c)) (Proc.devRef .tc main_v6) = _
  have h0 : W0 m ρ c (Proc.devRef .tc main_arg1) = m ((c : Thread nD τ).loc main_arg1) := rfl
  generalize W0 m ρ c = U at h0 ⊢
  simp only [hostOps0, hostOps0_1]
  read_results
  rw [h0]
  rfl

/-- The inverse square roots of the degrees (zero where the degree is not positive), there. -/
theorem W2_v14 : W2 m ρ c (Proc.devRef .tc main_v14) = ChainK.dinv (m ((c : Thread nD τ).loc main_arg1)) := by
  show StableHlo.after hostOps0_1 (StableHlo.after hostOps0 (W0 m ρ c)) (Proc.devRef .tc main_v14) = _
  have h0 : W0 m ρ c (Proc.devRef .tc main_arg1) = m ((c : Thread nD τ).loc main_arg1) := rfl
  generalize W0 m ρ c = U at h0 ⊢
  simp only [hostOps0, hostOps0_1]
  read_results
  rw [h0]
  rfl

/-- The weights of the extended edges: the product of the inverse square roots at the two ends. -/
theorem W3_v29 : W3 m ρ c (Proc.devRef .tc main_v29) = ChainK.norm (m ((c : Thread nD τ).loc main_arg1)) := by
  show StableHlo.after hostOps0_2 (W2 m ρ c) (Proc.devRef .tc main_v29) = _
  have h3 := W2_v3 m ρ c
  have h6 := W2_v6 m ρ c
  have h14 := W2_v14 m ρ c
  generalize W2 m ρ c = U at h3 h6 h14 ⊢
  simp only [hostOps0_2]
  read_results
  rw [h3, h6, h14]
  rfl

/-- The first 40000 rows' first 1280 columns. -/
theorem W3_v30 : W3 m ρ c (Proc.devRef .tc main_v30) = ChainK.geneX (m ((c : Thread nD τ).loc main_arg0)) := by
  show StableHlo.after hostOps0_2 (StableHlo.after hostOps0_1 (StableHlo.after hostOps0 (W0 m ρ c))) (Proc.devRef .tc main_v30) = _
  have h0 : W0 m ρ c (Proc.devRef .tc main_arg0) = m ((c : Thread nD τ).loc main_arg0) := rfl
  generalize W0 m ρ c = U at h0 ⊢
  simp only [hostOps0, hostOps0_1, hostOps0_2]
  read_results
  rw [h0]
  rfl

/-- The last 10000 rows. -/
theorem W3_v31 : W3 m ρ c (Proc.devRef .tc main_v31) = ChainK.goidX (m ((c : Thread nD τ).loc main_arg0)) := by
  show StableHlo.after hostOps0_2 (StableHlo.after hostOps0_1 (StableHlo.after hostOps0 (W0 m ρ c))) (Proc.devRef .tc main_v31) = _
  have h0 : W0 m ρ c (Proc.devRef .tc main_arg0) = m ((c : Thread nD τ).loc main_arg0) := rfl
  generalize W0 m ρ c = U at h0 ⊢
  simp only [hostOps0, hostOps0_1, hostOps0_2]
  read_results
  rw [h0]
  rfl

/-- The four weight matrices after the change of format. -/
theorem W3_v32 : W3 m ρ c (Proc.devRef .tc main_v32) = truncf .bf16 (m ((c : Thread nD τ).loc main_arg3)) bitsLt_bf16_f32 := by
  show StableHlo.after hostOps0_2 (StableHlo.after hostOps0_1 (StableHlo.after hostOps0 (W0 m ρ c))) (Proc.devRef .tc main_v32) = _
  have h0 : W0 m ρ c (Proc.devRef .tc main_arg3) = m ((c : Thread nD τ).loc main_arg3) := rfl
  generalize W0 m ρ c = U at h0 ⊢
  simp only [hostOps0, hostOps0_1, hostOps0_2]
  read_results
  rw [h0]

/-- The second. -/
theorem W3_v33 : W3 m ρ c (Proc.devRef .tc main_v33) = truncf .bf16 (m ((c : Thread nD τ).loc main_arg5)) bitsLt_bf16_f32 := by
  show StableHlo.after hostOps0_2 (StableHlo.after hostOps0_1 (StableHlo.after hostOps0 (W0 m ρ c))) (Proc.devRef .tc main_v33) = _
  have h0 : W0 m ρ c (Proc.devRef .tc main_arg5) = m ((c : Thread nD τ).loc main_arg5) := rfl
  generalize W0 m ρ c = U at h0 ⊢
  simp only [hostOps0, hostOps0_1, hostOps0_2]
  read_results
  rw [h0]

/-- The third. -/
theorem W3_v34 : W3 m ρ c (Proc.devRef .tc main_v34) = truncf .bf16 (m ((c : Thread nD τ).loc main_arg11)) bitsLt_bf16_f32 := by
  show StableHlo.after hostOps0_2 (StableHlo.after hostOps0_1 (StableHlo.after hostOps0 (W0 m ρ c))) (Proc.devRef .tc main_v34) = _
  have h0 : W0 m ρ c (Proc.devRef .tc main_arg11) = m ((c : Thread nD τ).loc main_arg11) := rfl
  generalize W0 m ρ c = U at h0 ⊢
  simp only [hostOps0, hostOps0_1, hostOps0_2]
  read_results
  rw [h0]

/-- The fourth. -/
theorem W3_v35 : W3 m ρ c (Proc.devRef .tc main_v35) = truncf .bf16 (m ((c : Thread nD τ).loc main_arg13)) bitsLt_bf16_f32 := by
  show StableHlo.after hostOps0_2 (StableHlo.after hostOps0_1 (StableHlo.after hostOps0 (W0 m ρ c))) (Proc.devRef .tc main_v35) = _
  have h0 : W0 m ρ c (Proc.devRef .tc main_arg13) = m ((c : Thread nD τ).loc main_arg13) := rfl
  generalize W0 m ρ c = U at h0 ⊢
  simp only [hostOps0, hostOps0_1, hostOps0_2]
  read_results
  rw [h0]

end Cert.KernelIdeal.Prologue

end
-- ==== Proof.KStages.lean ====
/-
  The host operations between the kernel's regions, read at their boundaries.

  Between the first and the second region the node features are stacked: the first 40000 rows' slice on the rows the
  first region computed. Between the second and the third, and between the third and the fourth, a convolution is
  finished on the host: the product's rows are gathered by the edges' sources, scaled by the edges' weights, added into
  the rows of the edges' targets; the bias row is added, the maximum with zero taken, and the last 10000 rows replaced
  by a projection the first region computed. Each is stated for ANY contents of the region outputs it reads (they are
  hypotheses), at any reading of the floats; the edge lists and the weights are those the prologue left, carried
  unchanged across the regions and stretches in between.
-/
import proofs.«141848_j79654463472115_1_alg».proof.Proof.Gen.KernelIdeal.Frame
import proofs.«141848_j79654463472115_1_alg».proof.Proof.ChainK
import proofs.«141848_j79654463472115_1_alg».proof.Proof.KCarry
import proofs.«141848_j79654463472115_1_alg».proof.Proof.KRead
import proofs.«141848_j79654463472115_1_alg».proof.Proof.KPrologue

set_option maxRecDepth 16384

noncomputable section

namespace Cert.KernelIdeal.Stages

open Cert.KernelIdeal Cert.KernelIdeal.Gen Cert.KernelIdeal.Keep Cert.Gcn
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- The node features: the first slice stacked on the first region's first output. -/
theorem features (g : FVec F S10000x1280 .f32)
    (hg : W4 m ρ c (Proc.devRef .tc main_v36_0) = g) :
    W5 m ρ c (Proc.devRef .tc main_v37) = ChainK.xt (m ((c : Thread nD τ).loc main_arg0)) g := by
  show StableHlo.after hostOps1 (W4 m ρ c) (Proc.devRef .tc main_v37) = _
  have h30 := (Carry.W4_v30 m ρ c).trans (Prologue.W3_v30 m ρ c)
  have hg' := hg
  generalize W4 m ρ c = U at h30 hg' ⊢
  simp only [hostOps1]
  read_results
  rw [h30, hg']
  rfl

/-- The first layer's output: the convolution finished on the second region's product, its last rows replaced. -/
theorem layer1 (xw : FVec F S50000x256 .f32) (p : FVec F S10000x256 .f32)
    (hxw : W6 m ρ c (Proc.devRef .tc main_v38) = xw) (hp : W4 m ρ c (Proc.devRef .tc main_v36_1) = p) :
    W9 m ρ c (Proc.devRef .tc main_v57) = ChainK.setTail256 (ChainK.conv256 xw (m ((c : Thread nD τ).loc main_arg1)) (m ((c : Thread nD τ).loc main_arg8))) p := by
  show StableHlo.after hostOps2_2 (StableHlo.after hostOps2_1 (StableHlo.after hostOps2 (W6 m ρ c))) (Proc.devRef .tc main_v57) = _
  have h6 := (Carry.W6_v6 m ρ c).trans (Prologue.W3_v6 m ρ c)
  have h38 := hxw
  have h3 := (Carry.W6_v3 m ρ c).trans (Prologue.W3_v3 m ρ c)
  have h29 := (Carry.W6_v29 m ρ c).trans (Prologue.W3_v29 m ρ c)
  have h8 := Carry.W6_arg8 m ρ c
  have hp' := (Carry.W6_v36_1 m ρ c).trans hp
  generalize W6 m ρ c = U at h6 h38 h3 h29 h8 hp' ⊢
  simp only [hostOps2, hostOps2_1, hostOps2_2]
  read_results
  rw [h6, h38, h3, h29, h8, hp']
  rfl

/-- The second layer's output: the same on the third region's product, with the second projection. -/
theorem layer2 (xw : FVec F S50000x128 .f32) (p : FVec F S10000x128 .f32)
    (hxw : W10 m ρ c (Proc.devRef .tc main_v58) = xw) (hp : W4 m ρ c (Proc.devRef .tc main_v36_2) = p) :
    W13 m ρ c (Proc.devRef .tc main_v77) = ChainK.setTail128 (ChainK.conv128 xw (m ((c : Thread nD τ).loc main_arg1)) (m ((c : Thread nD τ).loc main_arg10))) p := by
  show StableHlo.after hostOps3_2 (StableHlo.after hostOps3_1 (StableHlo.after hostOps3 (W10 m ρ c))) (Proc.devRef .tc main_v77) = _
  have h6 := (Carry.W10_v6 m ρ c).trans ((Carry.W6_v6 m ρ c).trans (Prologue.W3_v6 m ρ c))
  have h58 := hxw
  have h3 := (Carry.W10_v3 m ρ c).trans ((Carry.W6_v3 m ρ c).trans (Prologue.W3_v3 m ρ c))
  have h29 := (Carry.W10_v29 m ρ c).trans ((Carry.W6_v29 m ρ c).trans (Prologue.W3_v29 m ρ c))
  have h10 := Carry.W10_arg10 m ρ c
  have hp' := (Carry.W10_v36_2 m ρ c).trans hp
  generalize W10 m ρ c = U at h6 h58 h3 h29 h10 hp' ⊢
  simp only [hostOps3, hostOps3_1, hostOps3_2]
  read_results
  rw [h6, h58, h3, h29, h10, hp']
  rfl

end Cert.KernelIdeal.Stages

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.DenseBlock.lean ====
/-
  Dense layers on blocks of rows, at the exact extended reals.

  First, the form a dense layer takes inside a kernel body — a plain matrix product accumulated into a zero splat, plus a
  bias vector cast to one row and laid along every row — is `affineArr` of its three operands, as one equation between
  functions on the whole block; the maximum with a splat of the zero word is `reluArr`; a narrowing of the float format
  changes nothing, a float of any format being an extended real.

  Second, a dense layer acts row by row. `RowsOf f x A` says that row `p` of the block `x` is row `f p` of the array `A`.
  Entry `(p, j)` of `x W + b` is `∑ k, x (p, k) · W (k, j) + b j`, which mentions no row of `x` but `p`: so when the rows
  of `x` are rows of `A`, the rows of a layer of `x` are the same rows of the layer of `A` (same weights, same bias), and
  likewise for the maximum with zero. A chain of layers applied to a block of rows of an array is therefore the block of
  the same rows of the chain applied to the array.
-/
import proofs.«141848_j79654463472115_1_alg».proof.Proof.Spec
import proofs.«141848_j79654463472115_1_alg».proof.Proof.LibSageLayer

noncomputable section

open scoped BigOperators

namespace Cert.Gcn

open Idealize.ShloMosaic Idealize.ShloMosaic.ValueIdx Idealize.ShloMosaic.StackMember

/-! ## A kernel body's dense layer, as a function on the block -/

/-- Narrowing the float format is the identity on extended reals. -/
theorem truncf_ideal {s : Shape} {φ ψ : FTy} (a : FVec Ideal s φ) (h : ψ.bits < φ.bits) :
    (truncf ψ a h : FVec Ideal s ψ) = a := rfl

/-- A plain `[R, K]` by `[K, N]` product into a zero accumulator, plus the bias vector cast to one row and laid along every
    row, is the dense layer `affineArr`. The dimension numbers are any record equal to the plain ones; the operands'
    float formats are arbitrary. -/
theorem affine_block {R K N : ℕ} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (b : FVec Ideal ⟨1, ![N]⟩ .f32)
    (sc : (⟨1, ![N]⟩ : Shape).ShapeCasts ⟨2, ![1, N]⟩) (hb : (⟨2, ![1, N]⟩ : Shape).Broadcasts ⟨2, ![R, N]⟩) :
    addf (matmul D prec h w (constant ⟨2, ![R, N]⟩ .f32 0x00000000#32))
        (broadcastTo ⟨2, ![R, N]⟩ (shapeCast ⟨2, ![1, N]⟩ b sc) hb)
      = affineArr h w b := by
  subst hD
  funext i
  obtain ⟨p, j, rfl⟩ : ∃ (p : Fin R) (j : Fin N), i = ix2 p j := ⟨i 0, i 1, eq_ix2 i⟩
  rw [addf_apply, broadcastTo_1b_ab_apply, Cert.Sage.matmul0_apply, Cert.Sage.rowcast_apply]
  rfl

/-- The maximum with a splat of the zero word is `reluArr`. -/
theorem relu_block {s : Shape} (v : FVec Ideal s .f32) :
    maximumf v (broadcast s (Scalar.ofBits (F := Ideal) .f32 0x00000000#32)) = reluArr v :=
  funext fun i => Cert.Sage.relu_kernel_apply v i

/-! ## Row by row -/

/-- Row `p` of the block `x` is row `f p` of the array `A`. -/
def RowsOf {R R' K : ℕ} (f : Fin R' → Fin R) (x : (⟨2, ![R', K]⟩ : Shape).Idx → EReal)
    (A : (⟨2, ![R, K]⟩ : Shape).Idx → EReal) : Prop :=
  ∀ (p : Fin R') (k : Fin K), x (ix2 p k) = A (ix2 (f p) k)

/-- A dense layer of a block of rows is the block of the same rows of the dense layer. -/
theorem RowsOf.affine {R R' K N : ℕ} {f : Fin R' → Fin R} {x : (⟨2, ![R', K]⟩ : Shape).Idx → EReal}
    {A : (⟨2, ![R, K]⟩ : Shape).Idx → EReal} (h : RowsOf f x A) (W : (⟨2, ![K, N]⟩ : Shape).Idx → EReal)
    (b : (⟨1, ![N]⟩ : Shape).Idx → EReal) : RowsOf f (affineArr x W b) (affineArr A W b) := by
  intro p j
  rw [affineArr_apply, affineArr_apply]
  refine congrArg (· + b (ix1 j)) (Finset.sum_congr rfl fun k _ => ?_)
  rw [h p k]

/-- The maximum with zero of a block of rows is the block of the same rows of the maximum with zero. -/
theorem RowsOf.relu {R R' K : ℕ} {f : Fin R' → Fin R} {x : (⟨2, ![R', K]⟩ : Shape).Idx → EReal}
    {A : (⟨2, ![R, K]⟩ : Shape).Idx → EReal} (h : RowsOf f x A) : RowsOf f (reluArr x) (reluArr A) := by
  intro p k
  rw [reluArr_apply, reluArr_apply, h p k]

/-- An array read through a map of indices that sends `(p, k)` to `(f p, k)` is a block of its rows. -/
theorem RowsOf.of_read {R R' K : ℕ} (f : Fin R' → Fin R) (A : (⟨2, ![R, K]⟩ : Shape).Idx → EReal)
    (e : (⟨2, ![R', K]⟩ : Shape).Idx → (⟨2, ![R, K]⟩ : Shape).Idx)
    (he : ∀ (p : Fin R') (k : Fin K), e (ix2 p k) = ix2 (f p) k) : RowsOf f (fun y => A (e y)) A := by
  intro p k
  show A (e (ix2 p k)) = _
  rw [he]

/-- Conversely a block of rows of `A` is `A` read through any such map. -/
theorem RowsOf.eq_read {R R' K : ℕ} {f : Fin R' → Fin R} {x : (⟨2, ![R', K]⟩ : Shape).Idx → EReal}
    {A : (⟨2, ![R, K]⟩ : Shape).Idx → EReal} (h : RowsOf f x A)
    (e : (⟨2, ![R', K]⟩ : Shape).Idx → (⟨2, ![R, K]⟩ : Shape).Idx)
    (he : ∀ (p : Fin R') (k : Fin K), e (ix2 p k) = ix2 (f p) k) : x = fun y => A (e y) := by
  funext y
  obtain ⟨p, k, rfl⟩ : ∃ (p : Fin R') (k : Fin K), y = ix2 p k := ⟨y 0, y 1, eq_ix2 y⟩
  rw [he, h p k]

end Cert.Gcn

end
-- ==== Proof.Region0Pay.lean ====
/-
  What one grid point of the first region computes, as functions on its block of 200 rows.

  The body of the region is a chain of four dense layers on the 200 rows of GO-term features it is handed:
  `g = max (max (x Wd1 + bd1) 0 · Wd2 + bd2) 0`, `p1 = g Wp1 + bp1`, `p2 = p1 Wp2 + bp2`. Each matrix product runs on operands
  narrowed to bf16 and accumulates into a zero splat; at the extended reals the narrowing is the identity and the product
  is the plain sum of products, so each stored value is the corresponding chain of `affineArr` / `reluArr` of the loaded
  blocks. Each value is stated over the one before it: the block of `p1` is a dense layer of the block of `g`, the block
  of `p2` a dense layer of the block of `p1`.
-/
import proofs.«141848_j79654463472115_1_alg».proof.Proof.Gen.KernelIdeal.Skeleton
import proofs.«141848_j79654463472115_1_alg».proof.Proof.Spec
import proofs.«141848_j79654463472115_1_alg».proof.Proof.DenseBlock
import Idealize.ShloMosaic.Lib.Pipeline.Value

noncomputable section

namespace Cert.KernelIdeal.Region0

open Cert.KernelIdeal Cert.KernelIdeal.Gen Cert.Gcn Idealize.ShloMosaic Idealize.ShloMosaic.ValueIdx
open Idealize.ShloMosaic.StackMember

/-- The block of `g`: two dense layers, each followed by the maximum with zero, of the block of `x`. -/
theorem pay_g (x : Vec Ideal S200x4096 .f32) (w1 : Vec Ideal S4096x1024 .bf16) (b1 : Vec Ideal S1024 .f32)
    (w2 : Vec Ideal S1024x1280 .bf16) (b2 : Vec Ideal S1280 .f32) :
    k0_pay2 (F := Ideal) x w1 b1 w2 b2 = reluArr (affineArr (reluArr (affineArr x w1 b1)) w2 b2) := by
  unfold k0_pay2
  simp only [shapeCast_self, truncf_ideal]
  rw [affine_block dot_S200x4096_S4096x1024_S200x1024_1_0_0_1_n_n rfl, relu_block,
    affine_block dot_S200x1024_S1024x1280_S200x1280_1_0_0_1_n_n rfl, relu_block]

/-- The block of `p1`: a dense layer of the block of `g`. -/
theorem pay_p1 (x : Vec Ideal S200x4096 .f32) (w1 : Vec Ideal S4096x1024 .bf16) (b1 : Vec Ideal S1024 .f32)
    (w2 : Vec Ideal S1024x1280 .bf16) (b2 : Vec Ideal S1280 .f32) (w3 : Vec Ideal S1280x256 .bf16) (b3 : Vec Ideal S256 .f32) :
    k0_pay3 (F := Ideal) x w1 b1 w2 b2 w3 b3 = affineArr (k0_pay2 (F := Ideal) x w1 b1 w2 b2) w3 b3 := by
  unfold k0_pay3
  simp only [shapeCast_self, truncf_ideal]
  rw [affine_block dot_S200x1280_S1280x256_S200x256_1_0_0_1_n_n rfl]

/-- The block of `p2`: a dense layer of the block of `p1`. -/
theorem pay_p2 (x : Vec Ideal S200x4096 .f32) (w1 : Vec Ideal S4096x1024 .bf16) (b1 : Vec Ideal S1024 .f32)
    (w2 : Vec Ideal S1024x1280 .bf16) (b2 : Vec Ideal S1280 .f32) (w3 : Vec Ideal S1280x256 .bf16) (b3 : Vec Ideal S256 .f32)
    (w4 : Vec Ideal S256x128 .bf16) (b4 : Vec Ideal S128 .f32) :
    k0_pay1 (F := Ideal) (k0_pay4 (F := Ideal) x w1 b1 w2 b2 w3 b3) (k0_pay5 (F := Ideal) w4) b4
      = affineArr (k0_pay3 (F := Ideal) x w1 b1 w2 b2 w3 b3) w4 b4 := by
  unfold k0_pay1 k0_pay4 k0_pay5
  simp only [shapeCast_self, truncf_ideal]
  rw [affine_block dot_S200x256_S256x128_S200x128_1_0_0_1_n_n rfl]

end Cert.KernelIdeal.Region0

end
-- ==== Proof.Region0.lean ====
/-
  The three arrays the first region leaves: the GO-term features after the two-layer network, and their two projections.

  The region runs over 50 grid points. Point `t` is handed rows `200 t … 200 t + 199` of the 10000 feature rows and all of
  every weight matrix and bias vector, and writes rows `200 t … 200 t + 199` of each of its three result arrays. What it
  writes is a chain of dense layers of the rows it was handed (`Region0Pay`), and a dense layer acts row by row
  (`DenseBlock`): so the rows point `t` writes are rows `200 t … 200 t + 199` of the same chain applied to the whole
  arrays. Row `r` is written by point `r / 200`, so the 50 blocks fill each result array, which therefore ends holding
  the chain of dense layers of the arrays the region found.
-/
import proofs.«141848_j79654463472115_1_alg».proof.Proof.Gen.KernelIdeal.Frame
import proofs.«141848_j79654463472115_1_alg».proof.Proof.Spec
import proofs.«141848_j79654463472115_1_alg».proof.Proof.DenseBlock
import proofs.«141848_j79654463472115_1_alg».proof.Proof.Region0Pay
import Idealize.ShloMosaic.Lib.Pipeline.Value

noncomputable section

namespace Cert.KernelIdeal.Region0

open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The three arrays -/

/-- The GO-term features after the two-layer network. -/
def gArr (c : Dev nD) : S10000x1280.Idx → EReal :=
  reluArr (affineArr (R := 10000) (K := 1024) (N := 1280)
    (reluArr (affineArr (R := 10000) (K := 4096) (N := 1024) (V c main_v31) (V c main_v32) (V c main_arg4)))
    (V c main_v33) (V c main_arg6))

/-- Their first projection. -/
def p1Arr (c : Dev nD) : S10000x256.Idx → EReal :=
  affineArr (R := 10000) (K := 1280) (N := 256) (gArr V c) (V c main_v34) (V c main_arg12)

/-- Their second projection. -/
def p2Arr (c : Dev nD) : S10000x128.Idx → EReal :=
  affineArr (R := 10000) (K := 256) (N := 128) (p1Arr V c) (V c main_v35) (V c main_arg14)

/-! ## Which rows a point is handed and writes -/

theorem zero2 : (![0, 0] : Fin 2 → Nat) = fun _ => 0 := funext fun a => by fin_cases a <;> rfl
theorem zero1 : (![0] : Fin 1 → Nat) = fun _ => 0 := funext fun a => by fin_cases a <;> rfl

/-- The grid has 50 points. -/
theorem lt50 (t : Fin cfg0.N) : t.val < 50 := lt_of_lt_of_eq t.isLt N_0

/-- Row `p` of block `n` of 200 rows is row `200 n + p` of the array. -/
def blockRow (n : ℕ) (hn : n < 50) (p : Fin 200) : Fin 10000 := ⟨n * 200 + p.val, by have := p.isLt; omega⟩

/-- The index maps, decided over the 50 points: the row blocks (the features handed in, the three results) sit at block
    index `(t, 0)`; every weight matrix and bias vector is one block at index 0. -/
theorem index_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem index_whole : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The blocks a point is handed -/

/-- The block of features at point `t` is rows `200 t …` of the feature array. -/
theorem rows_x (c : Dev nD) (t : Fin cfg0.N) :
    RowsOf (blockRow t.val (lt50 t)) (iblk0 V c 0 t : S200x4096.Idx → EReal) (V c main_v31 : S10000x4096.Idx → EReal) := by
  intro p k
  show (V c main_v31 : S10000x4096.Idx → EReal) (((cfg0.win 0).blk t).view.emb (ix2 p k)) = _
  refine congrArg (V c main_v31 : S10000x4096.Idx → EReal) ?_
  obtain ⟨e0, e1, -⟩ := index_rows t
  funext a; apply Fin.ext
  match a with
  | ⟨0, _⟩ => show win0_0.index t (0 : Fin 2) * 200 + 1 * p.val = t.val * 200 + p.val; rw [e0]; omega
  | ⟨1, _⟩ => show win0_0.index t (1 : Fin 2) * 4096 + 1 * k.val = k.val; rw [e1]; omega

/-- Every point is handed all of `Wd1`. -/
theorem whole_Wd1 (c : Dev nD) (t : Fin cfg0.N) :
    (iblk0 V c 1 t : S4096x1024.Idx → EReal) = (V c main_v32 : S4096x1024.Idx → EReal) := by
  funext y
  show (V c main_v32 : S4096x1024.Idx → EReal) (((cfg0.win 1).blk t).view.emb y) = _
  refine congrArg (V c main_v32 : S4096x1024.Idx → EReal) ?_
  obtain ⟨e0, e1, -⟩ := index_whole t
  funext a; apply Fin.ext
  match a with
  | ⟨0, _⟩ => show win0_1.index t (0 : Fin 2) * 4096 + 1 * (y 0).val = (y 0).val; rw [e0]; omega
  | ⟨1, _⟩ => show win0_1.index t (1 : Fin 2) * 1024 + 1 * (y 1).val = (y 1).val; rw [e1]; omega

/-- Every point is handed all of `bd1`. -/
theorem whole_bd1 (c : Dev nD) (t : Fin cfg0.N) :
    (iblk0 V c 2 t : S1024.Idx → EReal) = (V c main_arg4 : S1024.Idx → EReal) := by
  funext y
  show (V c main_arg4 : S1024.Idx → EReal) (((cfg0.win 2).blk t).view.emb y) = _
  refine congrArg (V c main_arg4 : S1024.Idx → EReal) ?_
  obtain ⟨-, -, e0, -⟩ := index_whole t
  funext a; apply Fin.ext
  match a with
  | ⟨0, _⟩ => show win0_2.index t (0 : Fin 1) * 1024 + 1 * (y 0).val = (y 0).val; rw [e0]; omega

/-- Every point is handed all of `Wd2`. -/
theorem whole_Wd2 (c : Dev nD) (t : Fin cfg0.N) :
    (iblk0 V c 3 t : S1024x1280.Idx → EReal) = (V c main_v33 : S1024x1280.Idx → EReal) := by
  funext y
  show (V c main_v33 : S1024x1280.Idx → EReal) (((cfg0.win 3).blk t).view.emb y) = _
  refine congrArg (V c main_v33 : S1024x1280.Idx → EReal) ?_
  obtain ⟨-, -, -, e0, e1, -⟩ := index_whole t
  funext a; apply Fin.ext
  match a with
  | ⟨0, _⟩ => show win0_3.index t (0 : Fin 2) * 1024 + 1 * (y 0).val = (y 0).val; rw [e0]; omega
  | ⟨1, _⟩ => show win0_3.index t (1 : Fin 2) * 1280 + 1 * (y 1).val = (y 1).val; rw [e1]; omega

/-- Every point is handed all of `bd2`. -/
theorem whole_bd2 (c : Dev nD) (t : Fin cfg0.N) :
    (iblk0 V c 4 t : S1280.Idx → EReal) = (V c main_arg6 : S1280.Idx → EReal) := by
  funext y
  show (V c main_arg6 : S1280.Idx → EReal) (((cfg0.win 4).blk t).view.emb y) = _
  refine congrArg (V c main_arg6 : S1280.Idx → EReal) ?_
  obtain ⟨-, -, -, -, -, e0, -⟩ := index_whole t
  funext a; apply Fin.ext
  match a with
  | ⟨0, _⟩ => show win0_4.index t (0 : Fin 1) * 1280 + 1 * (y 0).val = (y 0).val; rw [e0]; omega

/-- Every point is handed all of `Wp1`. -/
theorem whole_Wp1 (c : Dev nD) (t : Fin cfg0.N) :
    (iblk0 V c 5 t : S1280x256.Idx → EReal) = (V c main_v34 : S1280x256.Idx → EReal) := by
  funext y
  show (V c main_v34 : S1280x256.Idx → EReal) (((cfg0.win 5).blk t).view.emb y) = _
  refine congrArg (V c main_v34 : S1280x256.Idx → EReal) ?_
  obtain ⟨-, -, -, -, -, -, e0, e1, -⟩ := index_whole t
  funext a; apply Fin.ext
  match a with
  | ⟨0, _⟩ => show win0_5.index t (0 : Fin 2) * 1280 + 1 * (y 0).val = (y 0).val; rw [e0]; omega
  | ⟨1, _⟩ => show win0_5.index t (1 : Fin 2) * 256 + 1 * (y 1).val = (y 1).val; rw [e1]; omega

/-- Every point is handed all of `bp1`. -/
theorem whole_bp1 (c : Dev nD) (t : Fin cfg0.N) :
    (iblk0 V c 6 t : S256.Idx → EReal) = (V c main_arg12 : S256.Idx → EReal) := by
  funext y
  show (V c main_arg12 : S256.Idx → EReal) (((cfg0.win 6).blk t).view.emb y) = _
  refine congrArg (V c main_arg12 : S256.Idx → EReal) ?_
  obtain ⟨-, -, -, -, -, -, -, -, e0, -⟩ := index_whole t
  funext a; apply Fin.ext
  match a with
  | ⟨0, _⟩ => show win0_6.index t (0 : Fin 1) * 256 + 1 * (y 0).val = (y 0).val; rw [e0]; omega

/-- Every point is handed all of `Wp2`. -/
theorem whole_Wp2 (c : Dev nD) (t : Fin cfg0.N) :
    (iblk0 V c 7 t : S256x128.Idx → EReal) = (V c main_v35 : S256x128.Idx → EReal) := by
  funext y
  show (V c main_v35 : S256x128.Idx → EReal) (((cfg0.win 7).blk t).view.emb y) = _
  refine congrArg (V c main_v35 : S256x128.Idx → EReal) ?_
  obtain ⟨-, -, -, -, -, -, -, -, -, e0, e1, -⟩ := index_whole t
  funext a; apply Fin.ext
  match a with
  | ⟨0, _⟩ => show win0_7.index t (0 : Fin 2) * 256 + 1 * (y 0).val = (y 0).val; rw [e0]; omega
  | ⟨1, _⟩ => show win0_7.index t (1 : Fin 2) * 128 + 1 * (y 1).val = (y 1).val; rw [e1]; omega

/-- Every point is handed all of `bp2`. -/
theorem whole_bp2 (c : Dev nD) (t : Fin cfg0.N) :
    (iblk0 V c 8 t : S128.Idx → EReal) = (V c main_arg14 : S128.Idx → EReal) := by
  funext y
  show (V c main_arg14 : S128.Idx → EReal) (((cfg0.win 8).blk t).view.emb y) = _
  refine congrArg (V c main_arg14 : S128.Idx → EReal) ?_
  obtain ⟨-, -, -, -, -, -, -, -, -, -, -, e0⟩ := index_whole t
  funext a; apply Fin.ext
  match a with
  | ⟨0, _⟩ => show win0_8.index t (0 : Fin 1) * 128 + 1 * (y 0).val = (y 0).val; rw [e0]; omega

/-! ## The rows a point writes, as rows of the whole-array chain -/

/-- Over variables: if the block `x` is rows `f p` of `A` and the weights and biases handed in are the whole arrays, the
    two-layer network of the block is the same rows of the two-layer network of `A`. -/
theorem block_g_of (f : Fin 200 → Fin 10000) (A : S10000x4096.Idx → EReal) (W1 : S4096x1024.Idx → EReal)
    (B1 : S1024.Idx → EReal) (W2 : S1024x1280.Idx → EReal) (B2 : S1280.Idx → EReal)
    (x : S200x4096.Idx → EReal) (w1 : S4096x1024.Idx → EReal) (b1 : S1024.Idx → EReal) (w2 : S1024x1280.Idx → EReal)
    (b2 : S1280.Idx → EReal) (hx : RowsOf f x A) (h1 : w1 = W1) (h2 : b1 = B1) (h3 : w2 = W2) (h4 : b2 = B2) :
    RowsOf f (reluArr (affineArr (R := 200) (K := 1024) (N := 1280) (reluArr (affineArr (R := 200) (K := 4096) (N := 1024) x w1 b1)) w2 b2))
      (reluArr (affineArr (R := 10000) (K := 1024) (N := 1280) (reluArr (affineArr (R := 10000) (K := 4096) (N := 1024) A W1 B1)) W2 B2)) := by
  subst h1 h2 h3 h4
  exact ((hx.affine _ _).relu.affine _ _).relu

/-- One more dense layer on top, over variables. -/
theorem block_affine_of {K N : ℕ} (f : Fin 200 → Fin 10000) (G : (⟨2, ![10000, K]⟩ : Shape).Idx → EReal)
    (W : (⟨2, ![K, N]⟩ : Shape).Idx → EReal) (B : (⟨1, ![N]⟩ : Shape).Idx → EReal)
    (g : (⟨2, ![200, K]⟩ : Shape).Idx → EReal) (w : (⟨2, ![K, N]⟩ : Shape).Idx → EReal) (b : (⟨1, ![N]⟩ : Shape).Idx → EReal)
    (hg : RowsOf f g G) (h1 : w = W) (h2 : b = B) : RowsOf f (affineArr g w b) (affineArr G W B) := by
  subst h1 h2
  exact hg.affine _ _

/-- The block of `g` at point `t` is rows `200 t …` of `gArr`. -/
theorem block_g (c : Dev nD) (t : Fin cfg0.N) :
    RowsOf (blockRow t.val (lt50 t))
      (k0_pay2 (F := Ideal) (iblk0 V c 0 t) (iblk0 V c 1 t) (iblk0 V c 2 t) (iblk0 V c 3 t) (iblk0 V c 4 t))
      (gArr V c) := by
  rw [pay_g]
  exact block_g_of _ _ _ _ _ _ _ _ _ _ _ (rows_x V c t) (whole_Wd1 V c t) (whole_bd1 V c t) (whole_Wd2 V c t) (whole_bd2 V c t)

/-- The block of `p1` at point `t` is rows `200 t …` of `p1Arr`. -/
theorem block_p1 (c : Dev nD) (t : Fin cfg0.N) :
    RowsOf (blockRow t.val (lt50 t))
      (k0_pay3 (F := Ideal) (iblk0 V c 0 t) (iblk0 V c 1 t) (iblk0 V c 2 t) (iblk0 V c 3 t) (iblk0 V c 4 t) (iblk0 V c 5 t) (iblk0 V c 6 t))
      (p1Arr V c) := by
  rw [pay_p1]
  exact block_affine_of _ _ _ _ _ _ _ (block_g V c t) (whole_Wp1 V c t) (whole_bp1 V c t)

/-- The block of `p2` at point `t` is rows `200 t …` of `p2Arr`. -/
theorem block_p2 (c : Dev nD) (t : Fin cfg0.N) :
    RowsOf (blockRow t.val (lt50 t))
      (k0_pay1 (F := Ideal) (k0_pay4 (F := Ideal) (iblk0 V c 0 t) (iblk0 V c 1 t) (iblk0 V c 2 t) (iblk0 V c 3 t) (iblk0 V c 4 t) (iblk0 V c 5 t) (iblk0 V c 6 t))
        (k0_pay5 (F := Ideal) (iblk0 V c 7 t)) (iblk0 V c 8 t))
      (p2Arr V c) := by
  rw [pay_p2]
  exact block_affine_of _ _ _ _ _ _ _ (block_p1 V c t) (whole_Wp2 V c t) (whole_bp2 V c t)

/-! ## The array of `g` -/

/-- Entry `(p, j)` of the block point `t` writes sits at `(200 t + p, j)` of the array. -/
theorem emb_g (t : Fin cfg0.N) (p : Fin 200) (j : Fin 1280) :
    ((cfg0.win 9).blk t).view.emb (ix2 p j) = (ix2 (blockRow t.val (lt50 t) p) j : S10000x1280.Idx) := by
  obtain ⟨-, -, e0, e1, -⟩ := index_rows t
  funext a; apply Fin.ext
  match a with
  | ⟨0, _⟩ => show win0_9.index t (0 : Fin 2) * 200 + 1 * p.val = t.val * 200 + p.val; rw [e0]; omega
  | ⟨1, _⟩ => show win0_9.index t (1 : Fin 2) * 1280 + 1 * j.val = j.val; rw [e1]; omega

/-- What point `t` writes back is block `t` of `gArr`. -/
theorem flushed_g (c : Dev nD) (t : Fin cfg0.N) :
    (dat0 (F := Ideal) V c).flushed 9 t = ((cfg0.win 9).blk t).view.read (Elt Ideal) (gArr V c) := by
  show (cfg0.win 9).cut (grid0.coords t) ((dat0 (F := Ideal) V c).after 9 t) = _
  rw [after0_9]
  unfold out0_9
  rw [View.canon_unit_zero zero2]
  simp only [View.ld_unit_zero (S := S200x4096) zero2, View.ld_unit_zero (S := S4096x1024) zero2,
    View.ld_unit_zero (S := S1024) zero1, View.ld_unit_zero (S := S1024x1280) zero2, View.ld_unit_zero (S := S1280) zero1,
    View.ld_unit_zero (S := S1280x256) zero2, View.ld_unit_zero (S := S256) zero1, View.ld_unit_zero (S := S256x128) zero2,
    View.ld_unit_zero (S := S128) zero1]
  exact (block_g V c t).eq_read (((cfg0.win 9).blk t).view.emb) (emb_g t)

/-- An index of the array is in point `t`'s block iff each coordinate is in the block's range on its axis. -/
theorem mem_blk_g (t : Fin cfg0.N) (i : S10000x1280.Idx) :
    i ∈ ((cfg0.win 9).blk t).view.set ↔ ∀ a : Fin 2, win0_9.index t a * S200x1280.size a ≤ (i a).val ∧ (i a).val < win0_9.index t a * S200x1280.size a + S200x1280.size a := by
  show i ∈ ((View.whole main_v36_0).slice (win0_9.rect t)).set ↔ _
  rw [View.set_slice_whole, Rect.mem_set_unit]
  exact Iff.rfl

/-- Row `r` is written by point `r / 200`: the 50 blocks fill the array. -/
theorem cover_g (i : S10000x1280.Idx) :
    ∃ t : Fin cfg0.N, (cfg0.win 9).flush t = true ∧ i ∈ ((cfg0.win 9).blk t).view.set := by
  have h0 : (i 0).val < 10000 := (i 0).isLt
  have h1 : (i 1).val < 1280 := (i 1).isLt
  have hN : cfg0.N = 50 := N_0
  obtain ⟨t, ht⟩ : ∃ t : Fin cfg0.N, t.val = (i 0).val / 200 := ⟨⟨(i 0).val / 200, by rw [hN]; omega⟩, rfl⟩
  refine ⟨t, flush0_9 t, ?_⟩
  rw [mem_blk_g]
  obtain ⟨-, -, e0, e1, -⟩ := index_rows t
  intro a
  match a with
  | ⟨0, _⟩ => show win0_9.index t (0 : Fin 2) * 200 ≤ (i 0).val ∧ (i 0).val < win0_9.index t (0 : Fin 2) * 200 + 200; rw [e0, ht]; omega
  | ⟨1, _⟩ => show win0_9.index t (1 : Fin 2) * 1280 ≤ (i 1).val ∧ (i 1).val < win0_9.index t (1 : Fin 2) * 1280 + 1280; rw [e1]; omega

/-- The array ends holding `gArr`. -/
theorem value_g (c : Dev nD) :
    ((dat0 (F := Ideal) V c).arrAt 9 cfg0.N : S10000x1280.Idx → EReal) = gArr V c :=
  (dat0 (F := Ideal) V c).arrAt_eq_of_cover 9 (gArr V c) (fun t _ => flushed_g V c t) (cover_g)

/-! ## The array of `p1` -/

/-- Entry `(p, j)` of the block point `t` writes sits at `(200 t + p, j)` of the array. -/
theorem emb_p1 (t : Fin cfg0.N) (p : Fin 200) (j : Fin 256) :
    ((cfg0.win 10).blk t).view.emb (ix2 p j) = (ix2 (blockRow t.val (lt50 t) p) j : S10000x256.Idx) := by
  obtain ⟨-, -, -, -, e0, e1, -⟩ := index_rows t
  funext a; apply Fin.ext
  match a with
  | ⟨0, _⟩ => show win0_10.index t (0 : Fin 2) * 200 + 1 * p.val = t.val * 200 + p.val; rw [e0]; omega
  | ⟨1, _⟩ => show win0_10.index t (1 : Fin 2) * 256 + 1 * j.val = j.val; rw [e1]; omega

/-- What point `t` writes back is block `t` of `p1Arr`. -/
theorem flushed_p1 (c : Dev nD) (t : Fin cfg0.N) :
    (dat0 (F := Ideal) V c).flushed 10 t = ((cfg0.win 10).blk t).view.read (Elt Ideal) (p1Arr V c) := by
  show (cfg0.win 10).cut (grid0.coords t) ((dat0 (F := Ideal) V c).after 10 t) = _
  rw [after0_10]
  unfold out0_10
  rw [View.canon_unit_zero zero2]
  simp only [View.ld_unit_zero (S := S200x4096) zero2, View.ld_unit_zero (S := S4096x1024) zero2,
    View.ld_unit_zero (S := S1024) zero1, View.ld_unit_zero (S := S1024x1280) zero2, View.ld_unit_zero (S := S1280) zero1,
    View.ld_unit_zero (S := S1280x256) zero2, View.ld_unit_zero (S := S256) zero1, View.ld_unit_zero (S := S256x128) zero2,
    View.ld_unit_zero (S := S128) zero1]
  exact (block_p1 V c t).eq_read (((cfg0.win 10).blk t).view.emb) (emb_p1 t)

/-- An index of the array is in point `t`'s block iff each coordinate is in the block's range on its axis. -/
theorem mem_blk_p1 (t : Fin cfg0.N) (i : S10000x256.Idx) :
    i ∈ ((cfg0.win 10).blk t).view.set ↔ ∀ a : Fin 2, win0_10.index t a * S200x256.size a ≤ (i a).val ∧ (i a).val < win0_10.index t a * S200x256.size a + S200x256.size a := by
  show i ∈ ((View.whole main_v36_1).slice (win0_10.rect t)).set ↔ _
  rw [View.set_slice_whole, Rect.mem_set_unit]
  exact Iff.rfl

/-- Row `r` is written by point `r / 200`: the 50 blocks fill the array. -/
theorem cover_p1 (i : S10000x256.Idx) :
    ∃ t : Fin cfg0.N, (cfg0.win 10).flush t = true ∧ i ∈ ((cfg0.win 10).blk t).view.set := by
  have h0 : (i 0).val < 10000 := (i 0).isLt
  have h1 : (i 1).val < 256 := (i 1).isLt
  have hN : cfg0.N = 50 := N_0
  obtain ⟨t, ht⟩ : ∃ t : Fin cfg0.N, t.val = (i 0).val / 200 := ⟨⟨(i 0).val / 200, by rw [hN]; omega⟩, rfl⟩
  refine ⟨t, flush0_10 t, ?_⟩
  rw [mem_blk_p1]
  obtain ⟨-, -, -, -, e0, e1, -⟩ := index_rows t
  intro a
  match a with
  | ⟨0, _⟩ => show win0_10.index t (0 : Fin 2) * 200 ≤ (i 0).val ∧ (i 0).val < win0_10.index t (0 : Fin 2) * 200 + 200; rw [e0, ht]; omega
  | ⟨1, _⟩ => show win0_10.index t (1 : Fin 2) * 256 ≤ (i 1).val ∧ (i 1).val < win0_10.index t (1 : Fin 2) * 256 + 256; rw [e1]; omega

/-- The array ends holding `p1Arr`. -/
theorem value_p1 (c : Dev nD) :
    ((dat0 (F := Ideal) V c).arrAt 10 cfg0.N : S10000x256.Idx → EReal) = p1Arr V c :=
  (dat0 (F := Ideal) V c).arrAt_eq_of_cover 10 (p1Arr V c) (fun t _ => flushed_p1 V c t) (cover_p1)

/-! ## The array of `p2` -/

/-- Entry `(p, j)` of the block point `t` writes sits at `(200 t + p, j)` of the array. -/
theorem emb_p2 (t : Fin cfg0.N) (p : Fin 200) (j : Fin 128) :
    ((cfg0.win 11).blk t).view.emb (ix2 p j) = (ix2 (blockRow t.val (lt50 t) p) j : S10000x128.Idx) := by
  obtain ⟨-, -, -, -, -, -, e0, e1⟩ := index_rows t
  funext a; apply Fin.ext
  match a with
  | ⟨0, _⟩ => show win0_11.index t (0 : Fin 2) * 200 + 1 * p.val = t.val * 200 + p.val; rw [e0]; omega
  | ⟨1, _⟩ => show win0_11.index t (1 : Fin 2) * 128 + 1 * j.val = j.val; rw [e1]; omega

/-- What point `t` writes back is block `t` of `p2Arr`. -/
theorem flushed_p2 (c : Dev nD) (t : Fin cfg0.N) :
    (dat0 (F := Ideal) V c).flushed 11 t = ((cfg0.win 11).blk t).view.read (Elt Ideal) (p2Arr V c) := by
  show (cfg0.win 11).cut (grid0.coords t) ((dat0 (F := Ideal) V c).after 11 t) = _
  rw [after0_11]
  unfold out0_11
  rw [View.canon_unit_zero zero2]
  simp only [View.ld_unit_zero (S := S200x4096) zero2, View.ld_unit_zero (S := S4096x1024) zero2,
    View.ld_unit_zero (S := S1024) zero1, View.ld_unit_zero (S := S1024x1280) zero2, View.ld_unit_zero (S := S1280) zero1,
    View.ld_unit_zero (S := S1280x256) zero2, View.ld_unit_zero (S := S256) zero1, View.ld_unit_zero (S := S256x128) zero2,
    View.ld_unit_zero (S := S128) zero1]
  exact (block_p2 V c t).eq_read (((cfg0.win 11).blk t).view.emb) (emb_p2 t)

/-- An index of the array is in point `t`'s block iff each coordinate is in the block's range on its axis. -/
theorem mem_blk_p2 (t : Fin cfg0.N) (i : S10000x128.Idx) :
    i ∈ ((cfg0.win 11).blk t).view.set ↔ ∀ a : Fin 2, win0_11.index t a * S200x128.size a ≤ (i a).val ∧ (i a).val < win0_11.index t a * S200x128.size a + S200x128.size a := by
  show i ∈ ((View.whole main_v36_2).slice (win0_11.rect t)).set ↔ _
  rw [View.set_slice_whole, Rect.mem_set_unit]
  exact Iff.rfl

/-- Row `r` is written by point `r / 200`: the 50 blocks fill the array. -/
theorem cover_p2 (i : S10000x128.Idx) :
    ∃ t : Fin cfg0.N, (cfg0.win 11).flush t = true ∧ i ∈ ((cfg0.win 11).blk t).view.set := by
  have h0 : (i 0).val < 10000 := (i 0).isLt
  have h1 : (i 1).val < 128 := (i 1).isLt
  have hN : cfg0.N = 50 := N_0
  obtain ⟨t, ht⟩ : ∃ t : Fin cfg0.N, t.val = (i 0).val / 200 := ⟨⟨(i 0).val / 200, by rw [hN]; omega⟩, rfl⟩
  refine ⟨t, flush0_11 t, ?_⟩
  rw [mem_blk_p2]
  obtain ⟨-, -, -, -, -, -, e0, e1⟩ := index_rows t
  intro a
  match a with
  | ⟨0, _⟩ => show win0_11.index t (0 : Fin 2) * 200 ≤ (i 0).val ∧ (i 0).val < win0_11.index t (0 : Fin 2) * 200 + 200; rw [e0, ht]; omega
  | ⟨1, _⟩ => show win0_11.index t (1 : Fin 2) * 128 ≤ (i 1).val ∧ (i 1).val < win0_11.index t (1 : Fin 2) * 128 + 128; rw [e1]; omega

/-- The array ends holding `p2Arr`. -/
theorem value_p2 (c : Dev nD) :
    ((dat0 (F := Ideal) V c).arrAt 11 cfg0.N : S10000x128.Idx → EReal) = p2Arr V c :=
  (dat0 (F := Ideal) V c).arrAt_eq_of_cover 11 (p2Arr V c) (fun t _ => flushed_p2 V c t) (cover_p2)

end Cert.KernelIdeal.Region0

end
-- ==== Proof.Region1.lean ====
/-
  The first tiled matrix product of the network, read as one array.

  The region multiplies a [50000, 1280] array of rows by a [1280, 256] matrix, a thousand rows at a time: grid point t
  takes rows 1000 t … 1000 t + 999 of the left operand and the whole matrix, forms their product (both operands narrowed
  to a shorter float format first, which at the exact extended reals changes nothing; the accumulator starts at zero) and
  writes it to rows 1000 t … 1000 t + 999 of the result. Entry (p, j) of a tile's product depends on row p of the tile
  only, so the fifty tiles are the restrictions of ONE function of the two arrays, the matrix product, and since every
  row of the result lies in exactly the tile of its quotient by 1000, the result array ends holding that product.
-/
import proofs.«141848_j79654463472115_1_alg».proof.Proof.Gen.KernelIdeal.Frame
import proofs.«141848_j79654463472115_1_alg».proof.Proof.Spec
import proofs.«141848_j79654463472115_1_alg».proof.Proof.LibSageLayer
import Idealize.ShloMosaic.Lib.Pipeline.Value
import Idealize.ShloMosaic.Lib.ValueIdx

noncomputable section

open scoped BigOperators

namespace Cert.KernelIdeal.Region1

open Cert.KernelIdeal Cert.KernelIdeal.Gen Cert.Gcn Idealize.ShloMosaic Idealize.ShloMosaic.ValueIdx
open Idealize.ShloMosaic.TcCoe Idealize.SL.Sem
open Idealize.ShloMosaic.Pipeline (Dat)

/-! ## One tile's product, entry by entry -/

/-- The dimension numbers the product is printed with are the plain ones: contract the left operand's columns with the
    right operand's rows. -/
theorem dims_plain : dot_S1000x1280_S1280x256_S1000x256_1_0_0_1_n_n = DotDims.plain 1000 1280 256 := rfl

/-- Entry (p, j) of a tile's product: the sum over the contracted coordinate of the products of row p of the tile with
    column j of the matrix. Narrowing the operands' format and casting a shape to itself are the identity here. -/
theorem tile_apply (x0 : Vec Ideal S1000x1280 .f32) (x1 : Vec Ideal S1280x256 .f32) (p : Fin 1000) (j : Fin 256) :
    (k1_pay1 (F := Ideal) x0 x1 : S1000x256.Idx → EReal) (ix2 p j) = ∑ k : Fin 1280, x0 (ix2 p k) * x1 (ix2 k j) := by
  unfold k1_pay1
  rw [dims_plain]
  refine (Cert.Sage.matmul0_apply none _ _ p j).trans ?_
  refine Finset.sum_congr rfl fun k _ => ?_
  rw [truncf_apply, truncf_apply, shapeCast_self]

/-! ## From tiles to the array -/

variable (V : (c : Dev nD) → (b : Ref sig .tc) → Buf (Elt Ideal) ((c : Thread nD τ).loc b))

theorem zeros : (![0, 0] : Fin 2 → Nat) = fun _ => 0 := funext fun a => by fin_cases a <;> rfl

/-- Where the windows sit at grid point t: the left operand's and the result's tile is the t-th block of rows, over all
    columns; the matrix is taken whole at every point. Decided over the fifty points. -/
theorem tile_position : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The product of the two arrays as the region finds them. -/
abbrev product (c : Dev nD) : S50000x256.Idx → EReal :=
  linArr (R := 50000) (K := 1280) (N := 256) (V c main_v37) (V c main_arg7)

/-- What grid point t writes back is the t-th block of rows of the product of the two whole arrays. -/
theorem flushed_eq (c : Dev nD) (t : Fin cfg1.N) :
    (dat1 (F := Ideal) V c).flushed 2 t = ((cfg1.win 2).blk t).view.read (Elt Ideal) (product V c) := by
  show (cfg1.win 2).cut (grid1.coords t) ((dat1 V c).after 2 t) = _
  rw [after1_2]
  unfold out1_2
  rw [View.canon_unit_zero zeros]
  simp only [View.ld_unit_zero (S := S1000x1280) zeros, View.ld_unit_zero (S := S1280x256) zeros]
  obtain ⟨e00, e01, e10, e11, e20, e21⟩ := tile_position t
  have ht : t.val < 50 := lt_of_lt_of_eq t.isLt N_1
  funext y
  obtain ⟨p, j, rfl⟩ : ∃ (p : Fin 1000) (j : Fin 256), y = ix2 p j := ⟨y 0, y 1, eq_ix2 y⟩
  show (k1_pay1 (F := Ideal) (iblk1 V c 0 t) (iblk1 V c 1 t) : S1000x256.Idx → EReal) (ix2 p j)
    = product V c (((cfg1.win 2).blk t).view.emb (ix2 p j))
  have hrow : t.val * 1000 + p.val < 50000 := by have := p.isLt; omega
  have hout : ((cfg1.win 2).blk t).view.emb (ix2 p j) = ix2 (⟨t.val * 1000 + p.val, hrow⟩ : Fin 50000) j := by
    funext a; apply Fin.ext
    match a with
    | ⟨0, _⟩ => show win1_2.index t (0 : Fin 2) * 1000 + 1 * p.val = t.val * 1000 + p.val; omega
    | ⟨1, _⟩ => show win1_2.index t (1 : Fin 2) * 256 + 1 * j.val = j.val; omega
  rw [hout]
  refine (tile_apply (iblk1 V c 0 t) (iblk1 V c 1 t) p j).trans ?_
  refine Eq.trans ?_ (linArr_apply (R := 50000) (K := 1280) (N := 256) (V c main_v37) (V c main_arg7)
    ⟨t.val * 1000 + p.val, hrow⟩ j).symm
  refine Finset.sum_congr rfl fun k _ => ?_
  refine congrArg₂ (fun a b : EReal => a * b) ?_ ?_
  · show V c main_v37 (((cfg1.win 0).blk t).view.emb (ix2 p k)) = V c main_v37 (ix2 (⟨t.val * 1000 + p.val, hrow⟩ : Fin 50000) k)
    refine congrArg (V c main_v37) ?_
    funext a; apply Fin.ext
    match a with
    | ⟨0, _⟩ => show win1_0.index t (0 : Fin 2) * 1000 + 1 * p.val = t.val * 1000 + p.val; omega
    | ⟨1, _⟩ => show win1_0.index t (1 : Fin 2) * 1280 + 1 * k.val = k.val; omega
  · show V c main_arg7 (((cfg1.win 1).blk t).view.emb (ix2 k j)) = V c main_arg7 (ix2 k j)
    refine congrArg (V c main_arg7) ?_
    funext a; apply Fin.ext
    match a with
    | ⟨0, _⟩ => show win1_1.index t (0 : Fin 2) * 1280 + 1 * k.val = k.val; omega
    | ⟨1, _⟩ => show win1_1.index t (1 : Fin 2) * 256 + 1 * j.val = j.val; omega

/-- An index of the result array is in point t's tile iff each coordinate is in the tile's range on its axis. -/
theorem mem_tile (t : Fin cfg1.N) (i : S50000x256.Idx) :
    i ∈ ((cfg1.win 2).blk t).view.set ↔ ∀ a : Fin 2, win1_2.index t a * S1000x256.size a ≤ (i a).val
      ∧ (i a).val < win1_2.index t a * S1000x256.size a + S1000x256.size a := by
  show i ∈ ((View.whole main_v38).slice (win1_2.rect t)).set ↔ _
  rw [View.set_slice_whole, Rect.mem_set_unit]
  exact Iff.rfl

/-- Every row of the result lies in the tile of its quotient by 1000. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hq : (i 0).val / 1000 < cfg1.N := lt_of_lt_of_eq (by omega : (i 0).val / 1000 < 50) N_1.symm
  refine ⟨⟨(i 0).val / 1000, hq⟩, flush1_2 _, ?_⟩
  obtain ⟨-, -, -, -, e20, e21⟩ := tile_position ⟨(i 0).val / 1000, hq⟩
  rw [mem_tile]
  intro a
  match a with
  | ⟨0, _⟩ =>
    show win1_2.index ⟨(i 0).val / 1000, hq⟩ (0 : Fin 2) * 1000 ≤ (i 0).val
      ∧ (i 0).val < win1_2.index ⟨(i 0).val / 1000, hq⟩ (0 : Fin 2) * 1000 + 1000
    rw [e20]; show (i 0).val / 1000 * 1000 ≤ (i 0).val ∧ (i 0).val < (i 0).val / 1000 * 1000 + 1000; omega
  | ⟨1, _⟩ =>
    show win1_2.index ⟨(i 0).val / 1000, hq⟩ (1 : Fin 2) * 256 ≤ (i 1).val
      ∧ (i 1).val < win1_2.index ⟨(i 0).val / 1000, hq⟩ (1 : Fin 2) * 256 + 256
    rw [e21]; omega

/-- The result array of the region is the matrix product of its two operand arrays as the region finds them. -/
theorem value (c : Dev nD) :
    ((dat1 (F := Ideal) V c).arrAt 2 cfg1.N : S50000x256.Idx → EReal)
      = linArr (R := 50000) (K := 1280) (N := 256) (V c main_v37) (V c main_arg7) :=
  (dat1 (F := Ideal) V c).arrAt_eq_of_cover 2 (product V c) (fun t _ => flushed_eq V c t) covered

end Cert.KernelIdeal.Region1

end
-- ==== Proof.Region2.lean ====
/-
  The second tiled matrix product of the network, read as one array.

  The region multiplies a [50000, 256] array of rows by a [256, 128] matrix, two thousand rows at a time: grid point t
  takes rows 2000 t … 2000 t + 1999 of the left operand and the whole matrix, forms their product (both operands narrowed
  to a shorter float format first, which at the exact extended reals changes nothing; the accumulator starts at zero) and
  writes it to rows 2000 t … 2000 t + 1999 of the result. Entry (p, j) of a tile's product depends on row p of the tile
  only, so the twenty-five tiles are the restrictions of ONE function of the two arrays, the matrix product, and since
  every row of the result lies in exactly the tile of its quotient by 2000, the result array ends holding that product.
-/
import proofs.«141848_j79654463472115_1_alg».proof.Proof.Gen.KernelIdeal.Frame
import proofs.«141848_j79654463472115_1_alg».proof.Proof.Spec
import proofs.«141848_j79654463472115_1_alg».proof.Proof.LibSageLayer
import Idealize.ShloMosaic.Lib.Pipeline.Value
import Idealize.ShloMosaic.Lib.ValueIdx

noncomputable section

open scoped BigOperators

namespace Cert.KernelIdeal.Region2

open Cert.KernelIdeal Cert.KernelIdeal.Gen Cert.Gcn Idealize.ShloMosaic Idealize.ShloMosaic.ValueIdx
open Idealize.ShloMosaic.TcCoe Idealize.SL.Sem
open Idealize.ShloMosaic.Pipeline (Dat)

/-! ## One tile's product, entry by entry -/

/-- The dimension numbers the product is printed with are the plain ones: contract the left operand's columns with the
    right operand's rows. -/
theorem dims_plain : dot_S2000x256_S256x128_S2000x128_1_0_0_1_n_n = DotDims.plain 2000 256 128 := rfl

/-- Entry (p, j) of a tile's product: the sum over the contracted coordinate of the products of row p of the tile with
    column j of the matrix. Narrowing the operands' format and casting a shape to itself are the identity here. -/
theorem tile_apply (x0 : Vec Ideal S2000x256 .f32) (x1 : Vec Ideal S256x128 .f32) (p : Fin 2000) (j : Fin 128) :
    (k2_pay1 (F := Ideal) x0 x1 : S2000x128.Idx → EReal) (ix2 p j) = ∑ k : Fin 256, x0 (ix2 p k) * x1 (ix2 k j) := by
  unfold k2_pay1
  rw [dims_plain]
  refine (Cert.Sage.matmul0_apply none _ _ p j).trans ?_
  refine Finset.sum_congr rfl fun k _ => ?_
  rw [truncf_apply, truncf_apply, shapeCast_self]

/-! ## From tiles to the array -/

variable (V : (c : Dev nD) → (b : Ref sig .tc) → Buf (Elt Ideal) ((c : Thread nD τ).loc b))

theorem zeros : (![0, 0] : Fin 2 → Nat) = fun _ => 0 := funext fun a => by fin_cases a <;> rfl

/-- Where the windows sit at grid point t: the left operand's and the result's tile is the t-th block of rows, over all
    columns; the matrix is taken whole at every point. Decided over the twenty-five points. -/
theorem tile_position : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the two arrays as the region finds them. -/
abbrev product (c : Dev nD) : S50000x128.Idx → EReal :=
  linArr (R := 50000) (K := 256) (N := 128) (V c main_v57) (V c main_arg9)

/-- What grid point t writes back is the t-th block of rows of the product of the two whole arrays. -/
theorem flushed_eq (c : Dev nD) (t : Fin cfg2.N) :
    (dat2 (F := Ideal) V c).flushed 2 t = ((cfg2.win 2).blk t).view.read (Elt Ideal) (product V c) := by
  show (cfg2.win 2).cut (grid2.coords t) ((dat2 V c).after 2 t) = _
  rw [after2_2]
  unfold out2_2
  rw [View.canon_unit_zero zeros]
  simp only [View.ld_unit_zero (S := S2000x256) zeros, View.ld_unit_zero (S := S256x128) zeros]
  obtain ⟨e00, e01, e10, e11, e20, e21⟩ := tile_position t
  have ht : t.val < 25 := lt_of_lt_of_eq t.isLt N_2
  funext y
  obtain ⟨p, j, rfl⟩ : ∃ (p : Fin 2000) (j : Fin 128), y = ix2 p j := ⟨y 0, y 1, eq_ix2 y⟩
  show (k2_pay1 (F := Ideal) (iblk2 V c 0 t) (iblk2 V c 1 t) : S2000x128.Idx → EReal) (ix2 p j)
    = product V c (((cfg2.win 2).blk t).view.emb (ix2 p j))
  have hrow : t.val * 2000 + p.val < 50000 := by have := p.isLt; omega
  have hout : ((cfg2.win 2).blk t).view.emb (ix2 p j) = ix2 (⟨t.val * 2000 + p.val, hrow⟩ : Fin 50000) j := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * j.val = j.val; omega
  rw [hout]
  refine (tile_apply (iblk2 V c 0 t) (iblk2 V c 1 t) p j).trans ?_
  refine Eq.trans ?_ (linArr_apply (R := 50000) (K := 256) (N := 128) (V c main_v57) (V c main_arg9)
    ⟨t.val * 2000 + p.val, hrow⟩ j).symm
  refine Finset.sum_congr rfl fun k _ => ?_
  refine congrArg₂ (fun a b : EReal => a * b) ?_ ?_
  · show V c main_v57 (((cfg2.win 0).blk t).view.emb (ix2 p k)) = V c main_v57 (ix2 (⟨t.val * 2000 + p.val, hrow⟩ : Fin 50000) k)
    refine congrArg (V c main_v57) ?_
    funext a; apply Fin.ext
    match a with
    | ⟨0, _⟩ => show win2_0.index t (0 : Fin 2) * 2000 + 1 * p.val = t.val * 2000 + p.val; omega
    | ⟨1, _⟩ => show win2_0.index t (1 : Fin 2) * 256 + 1 * k.val = k.val; omega
  · show V c main_arg9 (((cfg2.win 1).blk t).view.emb (ix2 k j)) = V c main_arg9 (ix2 k j)
    refine congrArg (V c main_arg9) ?_
    funext a; apply Fin.ext
    match a with
    | ⟨0, _⟩ => show win2_1.index t (0 : Fin 2) * 256 + 1 * k.val = k.val; omega
    | ⟨1, _⟩ => show win2_1.index t (1 : Fin 2) * 128 + 1 * j.val = j.val; omega

/-- An index of the result array is in point t's tile iff each coordinate is in the tile's range on its axis. -/
theorem mem_tile (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v58).slice (win2_2.rect t)).set ↔ _
  rw [View.set_slice_whole, Rect.mem_set_unit]
  exact Iff.rfl

/-- Every row of the result lies in the tile of its quotient by 2000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hq : (i 0).val / 2000 < cfg2.N := lt_of_lt_of_eq (by omega : (i 0).val / 2000 < 25) N_2.symm
  refine ⟨⟨(i 0).val / 2000, hq⟩, flush2_2 _, ?_⟩
  obtain ⟨-, -, -, -, e20, e21⟩ := tile_position ⟨(i 0).val / 2000, hq⟩
  rw [mem_tile]
  intro a
  match a with
  | ⟨0, _⟩ =>
    show win2_2.index ⟨(i 0).val / 2000, hq⟩ (0 : Fin 2) * 2000 ≤ (i 0).val
      ∧ (i 0).val < win2_2.index ⟨(i 0).val / 2000, hq⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, hq⟩ (1 : Fin 2) * 128 ≤ (i 1).val
      ∧ (i 1).val < win2_2.index ⟨(i 0).val / 2000, hq⟩ (1 : Fin 2) * 128 + 128
    rw [e21]; omega

/-- The result array of the region is the matrix product of its two operand arrays as the region finds them. -/
theorem value (c : Dev nD) :
    ((dat2 (F := Ideal) V c).arrAt 2 cfg2.N : S50000x128.Idx → EReal)
      = linArr (R := 50000) (K := 256) (N := 128) (V c main_v57) (V c main_arg9) :=
  (dat2 (F := Ideal) V c).arrAt_eq_of_cover 2 (product V c) (fun t _ => flushed_eq V c t) covered

end Cert.KernelIdeal.Region2

end
-- ==== Proof.Region3.lean ====
/-
  The third tiled matrix product of the network, with its bias, read as one array.

  The region multiplies a [50000, 128] array of rows by a [128, 64] matrix and adds a bias vector of 64 entries to every
  row, two thousand rows at a time: grid point t takes rows 2000 t … 2000 t + 1999 of the left operand, the whole matrix
  and the whole bias, forms the product (both operands narrowed to a shorter float format first, which at the exact
  extended reals changes nothing; the accumulator starts at zero), adds the bias laid as one row along every row, and
  writes the sum to rows 2000 t … 2000 t + 1999 of the result. Entry (p, j) of a tile's result depends on row p of the
  tile only, so the twenty-five tiles are the restrictions of ONE function of the three arrays, the dense layer
  "product plus bias row", and since every row of the result lies in exactly the tile of its quotient by 2000, the
  result array ends holding that layer.
-/
import proofs.«141848_j79654463472115_1_alg».proof.Proof.Gen.KernelIdeal.Frame
import proofs.«141848_j79654463472115_1_alg».proof.Proof.Spec
import proofs.«141848_j79654463472115_1_alg».proof.Proof.LibSageLayer
import Idealize.ShloMosaic.Lib.Pipeline.Value
import Idealize.ShloMosaic.Lib.ValueLayout
import Idealize.ShloMosaic.Lib.ValueIdx

noncomputable section

open scoped BigOperators

namespace Cert.KernelIdeal.Region3

open Cert.KernelIdeal Cert.KernelIdeal.Gen Cert.Gcn Idealize.ShloMosaic Idealize.ShloMosaic.ValueIdx
open Idealize.ShloMosaic.TcCoe Idealize.SL.Sem
open Idealize.ShloMosaic.Pipeline (Dat)

/-! ## One tile's layer, entry by entry -/

/-- The dimension numbers the product is printed with are the plain ones: contract the left operand's columns with the
    right operand's rows. -/
theorem dims_plain : dot_S2000x128_S128x64_S2000x64_1_0_0_1_n_n = DotDims.plain 2000 128 64 := rfl

/-- Entry (p, j) of a tile's result: the sum over the contracted coordinate of the products of row p of the tile with
    column j of the matrix, plus entry j of the bias. Narrowing the operands' format and casting a shape to itself are
    the identity here; the bias, cast to one row and laid along every row, reads at (p, j) its entry j. -/
theorem tile_apply (x0 : Vec Ideal S2000x128 .f32) (x1 : Vec Ideal S128x64 .f32) (x2 : Vec Ideal S64 .f32)
    (p : Fin 2000) (j : Fin 64) :
    (k3_pay1 (F := Ideal) x0 x1 x2 : S2000x64.Idx → EReal) (ix2 p j)
      = ∑ k : Fin 128, x0 (ix2 p k) * x1 (ix2 k j) + x2 (ix1 j) := by
  unfold k3_pay1
  rw [dims_plain, addf_apply, broadcastTo_1b_ab_apply, Cert.Sage.rowcast_apply]
  refine congrArg (fun s : EReal => s + x2 (ix1 j)) ?_
  refine (Cert.Sage.matmul0_apply none _ _ p j).trans ?_
  refine Finset.sum_congr rfl fun k _ => ?_
  rw [truncf_apply, truncf_apply, shapeCast_self]

/-! ## From tiles to the array -/

variable (V : (c : Dev nD) → (b : Ref sig .tc) → Buf (Elt Ideal) ((c : Thread nD τ).loc b))

theorem zeros : (![0, 0] : Fin 2 → Nat) = fun _ => 0 := funext fun a => by fin_cases a <;> rfl

theorem zero : (![0] : Fin 1 → Nat) = fun _ => 0 := funext fun a => by fin_cases a; rfl

/-- Where the windows sit at grid point t: the left operand's and the result's tile is the t-th block of rows, over all
    columns; the matrix and the bias are taken whole at every point. Decided over the twenty-five points. -/
theorem tile_position : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The dense layer of the three arrays as the region finds them. -/
abbrev layer (c : Dev nD) : S50000x64.Idx → EReal :=
  affineArr (R := 50000) (K := 128) (N := 64) (V c main_v77) (V c main_arg15) (V c main_arg16)

/-- What grid point t writes back is the t-th block of rows of the dense layer of the three whole arrays. -/
theorem flushed_eq (c : Dev nD) (t : Fin cfg3.N) :
    (dat3 (F := Ideal) V c).flushed 3 t = ((cfg3.win 3).blk t).view.read (Elt Ideal) (layer V c) := by
  show (cfg3.win 3).cut (grid3.coords t) ((dat3 V c).after 3 t) = _
  rw [after3_3]
  unfold out3_3
  rw [View.canon_unit_zero zeros]
  simp only [View.ld_unit_zero (S := S2000x128) zeros, View.ld_unit_zero (S := S128x64) zeros,
    View.ld_unit_zero (S := S64) zero]
  obtain ⟨e00, e01, e10, e11, e20, e30, e31⟩ := tile_position t
  have ht : t.val < 25 := lt_of_lt_of_eq t.isLt N_3
  funext y
  obtain ⟨p, j, rfl⟩ : ∃ (p : Fin 2000) (j : Fin 64), y = ix2 p j := ⟨y 0, y 1, eq_ix2 y⟩
  show (k3_pay1 (F := Ideal) (iblk3 V c 0 t) (iblk3 V c 1 t) (iblk3 V c 2 t) : S2000x64.Idx → EReal) (ix2 p j)
    = layer V c (((cfg3.win 3).blk t).view.emb (ix2 p j))
  have hrow : t.val * 2000 + p.val < 50000 := by have := p.isLt; omega
  have hout : ((cfg3.win 3).blk t).view.emb (ix2 p j) = ix2 (⟨t.val * 2000 + p.val, hrow⟩ : Fin 50000) j := by
    funext a; apply Fin.ext
    match a with
    | ⟨0, _⟩ => show win3_3.index t (0 : Fin 2) * 2000 + 1 * p.val = t.val * 2000 + p.val; omega
    | ⟨1, _⟩ => show win3_3.index t (1 : Fin 2) * 64 + 1 * j.val = j.val; omega
  rw [hout]
  refine (tile_apply (iblk3 V c 0 t) (iblk3 V c 1 t) (iblk3 V c 2 t) p j).trans ?_
  refine Eq.trans ?_ (affineArr_apply (R := 50000) (K := 128) (N := 64) (V c main_v77) (V c main_arg15)
    (V c main_arg16) ⟨t.val * 2000 + p.val, hrow⟩ j).symm
  refine congrArg₂ (fun a b : EReal => a + b) (Finset.sum_congr rfl fun k _ => ?_) ?_
  · refine congrArg₂ (fun a b : EReal => a * b) ?_ ?_
    · show V c main_v77 (((cfg3.win 0).blk t).view.emb (ix2 p k)) = V c main_v77 (ix2 (⟨t.val * 2000 + p.val, hrow⟩ : Fin 50000) k)
      refine congrArg (V c main_v77) ?_
      funext a; apply Fin.ext
      match a with
      | ⟨0, _⟩ => show win3_0.index t (0 : Fin 2) * 2000 + 1 * p.val = t.val * 2000 + p.val; omega
      | ⟨1, _⟩ => show win3_0.index t (1 : Fin 2) * 128 + 1 * k.val = k.val; omega
    · show V c main_arg15 (((cfg3.win 1).blk t).view.emb (ix2 k j)) = V c main_arg15 (ix2 k j)
      refine congrArg (V c main_arg15) ?_
      funext a; apply Fin.ext
      match a with
      | ⟨0, _⟩ => show win3_1.index t (0 : Fin 2) * 128 + 1 * k.val = k.val; omega
      | ⟨1, _⟩ => show win3_1.index t (1 : Fin 2) * 64 + 1 * j.val = j.val; omega
  · show V c main_arg16 (((cfg3.win 2).blk t).view.emb (ix1 j)) = V c main_arg16 (ix1 j)
    refine congrArg (V c main_arg16) ?_
    funext a; apply Fin.ext
    match a with
    | ⟨0, _⟩ => show win3_2.index t (0 : Fin 1) * 64 + 1 * j.val = j.val; omega

/-- An index of the result array is in point t's tile iff each coordinate is in the tile's range on its axis. -/
theorem mem_tile (t : Fin cfg3.N) (i : S50000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v78).slice (win3_3.rect t)).set ↔ _
  rw [View.set_slice_whole, Rect.mem_set_unit]
  exact Iff.rfl

/-- Every row of the result lies in the tile of its quotient by 2000. -/
theorem covered (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hq : (i 0).val / 2000 < cfg3.N := lt_of_lt_of_eq (by omega : (i 0).val / 2000 < 25) N_3.symm
  refine ⟨⟨(i 0).val / 2000, hq⟩, flush3_3 _, ?_⟩
  obtain ⟨-, -, -, -, -, e30, e31⟩ := tile_position ⟨(i 0).val / 2000, hq⟩
  rw [mem_tile]
  intro a
  match a with
  | ⟨0, _⟩ =>
    show win3_3.index ⟨(i 0).val / 2000, hq⟩ (0 : Fin 2) * 2000 ≤ (i 0).val
      ∧ (i 0).val < win3_3.index ⟨(i 0).val / 2000, hq⟩ (0 : Fin 2) * 2000 + 2000
    rw [e30]; show (i 0).val / 2000 * 2000 ≤ (i 0).val ∧ (i 0).val < (i 0).val / 2000 * 2000 + 2000; omega
  | ⟨1, _⟩ =>
    show win3_3.index ⟨(i 0).val / 2000, hq⟩ (1 : Fin 2) * 64 ≤ (i 1).val
      ∧ (i 1).val < win3_3.index ⟨(i 0).val / 2000, hq⟩ (1 : Fin 2) * 64 + 64
    rw [e31]; omega

/-- The result array of the region is the dense layer (matrix product plus the bias row) of its three operand arrays as
    the region finds them. -/
theorem value (c : Dev nD) :
    ((dat3 (F := Ideal) V c).arrAt 3 cfg3.N : S50000x64.Idx → EReal)
      = affineArr (R := 50000) (K := 128) (N := 64) (V c main_v77) (V c main_arg15) (V c main_arg16) :=
  (dat3 (F := Ideal) V c).arrAt_eq_of_cover 3 (layer V c) (fun t _ => flushed_eq V c t) covered

end Cert.KernelIdeal.Region3

end
-- ==== Proof.KValue.lean ====
/-
  The value of the idealized kernel's result, as a function of its arguments.

  Walking @main from the launch: the prologue leaves the extended edge lists, the edge weights and the two slices of
  the input (the prologue module). The first region computes, on the last 10000 rows, the two-layer network `g` and the
  two projections `p1`, `p2` — dense layers of the region's input arrays (the region modules). The node features are
  the first slice stacked on `g`; the second region multiplies them by the first convolution's weights; the host then
  gathers, scales, adds into the targets' rows, adds the bias, takes the maximum with zero and replaces the last 10000
  rows by `p1`; the third region multiplies by the second convolution's weights; the host aggregates again and replaces
  the last rows by `p2`; the fourth region applies the final dense layer. Each step is read at its boundary, in terms
  of the step before; composed, the result array is `ChainK.net` of the argument arrays.
-/
import proofs.«141848_j79654463472115_1_alg».proof.Proof.Gen.KernelIdeal.Frame
import proofs.«141848_j79654463472115_1_alg».proof.Proof.ChainK
import proofs.«141848_j79654463472115_1_alg».proof.Proof.KCarry
import proofs.«141848_j79654463472115_1_alg».proof.Proof.KRead
import proofs.«141848_j79654463472115_1_alg».proof.Proof.KPrologue
import proofs.«141848_j79654463472115_1_alg».proof.Proof.KStages
import proofs.«141848_j79654463472115_1_alg».proof.Proof.Region0
import proofs.«141848_j79654463472115_1_alg».proof.Proof.Region1
import proofs.«141848_j79654463472115_1_alg».proof.Proof.Region2
import proofs.«141848_j79654463472115_1_alg».proof.Proof.Region3

set_option maxRecDepth 16384

noncomputable section

namespace Cert.KernelIdeal.KValue

open Cert.KernelIdeal Cert.KernelIdeal.Gen Cert.KernelIdeal.Keep Cert.Gcn
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The steps of the network, over the launch contents of the arguments -/

/-- The GO-term rows after the two-layer network. -/
def gT : S10000x1280.Idx → EReal :=
  reluArr (affineArr (R := 10000) (K := 1024) (N := 1280) (reluArr (affineArr (R := 10000) (K := 4096) (N := 1024) (ChainK.goidX (F := Ideal) (m ((c : Thread nD τ).loc main_arg0))) (m ((c : Thread nD τ).loc main_arg3)) (m ((c : Thread nD τ).loc main_arg4)))) (m ((c : Thread nD τ).loc main_arg5)) (m ((c : Thread nD τ).loc main_arg6)))
/-- Their first projection. -/
def p1T : S10000x256.Idx → EReal := affineArr (R := 10000) (K := 1280) (N := 256) (gT m c) (m ((c : Thread nD τ).loc main_arg11)) (m ((c : Thread nD τ).loc main_arg12))
/-- Their second projection. -/
def p2T : S10000x128.Idx → EReal := affineArr (R := 10000) (K := 256) (N := 128) (p1T m c) (m ((c : Thread nD τ).loc main_arg13)) (m ((c : Thread nD τ).loc main_arg14))
/-- The node features times the first convolution's weights. -/
def xw1T : S50000x256.Idx → EReal := linArr (R := 50000) (K := 1280) (N := 256) (ChainK.xt (F := Ideal) (m ((c : Thread nD τ).loc main_arg0)) (gT m c)) (m ((c : Thread nD τ).loc main_arg7))
/-- The first layer's output, its last 10000 rows replaced by the first projection. -/
def h1T : S50000x256.Idx → EReal := ChainK.setTail256 (F := Ideal) (ChainK.conv256 (F := Ideal) (xw1T m c) (m ((c : Thread nD τ).loc main_arg1)) (m ((c : Thread nD τ).loc main_arg8))) (p1T m c)
/-- That, times the second convolution's weights. -/
def xw2T : S50000x128.Idx → EReal := linArr (R := 50000) (K := 256) (N := 128) (h1T m c) (m ((c : Thread nD τ).loc main_arg9))
/-- The second layer's output, its last 10000 rows replaced by the second projection. -/
def h2T : S50000x128.Idx → EReal := ChainK.setTail128 (F := Ideal) (ChainK.conv128 (F := Ideal) (xw2T m c) (m ((c : Thread nD τ).loc main_arg1)) (m ((c : Thread nD τ).loc main_arg10))) (p2T m c)
/-- The final dense layer. -/
def outT : S50000x64.Idx → EReal := affineArr (R := 50000) (K := 128) (N := 64) (h2T m c) (m ((c : Thread nD τ).loc main_arg15)) (m ((c : Thread nD τ).loc main_arg16))

/-- Composed, the steps are the network. -/
theorem outT_eq_net : outT m c = ChainK.net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := rfl

/-! ## At the exact extended reals a change of float format is the identity -/

theorem W3_v32I : (W3 m ρ c (Proc.devRef .tc main_v32) : S4096x1024.Idx → EReal) = (m ((c : Thread nD τ).loc main_arg3)) := Prologue.W3_v32 m ρ c
theorem W3_v33I : (W3 m ρ c (Proc.devRef .tc main_v33) : S1024x1280.Idx → EReal) = (m ((c : Thread nD τ).loc main_arg5)) := Prologue.W3_v33 m ρ c
theorem W3_v34I : (W3 m ρ c (Proc.devRef .tc main_v34) : S1280x256.Idx → EReal) = (m ((c : Thread nD τ).loc main_arg11)) := Prologue.W3_v34 m ρ c
theorem W3_v35I : (W3 m ρ c (Proc.devRef .tc main_v35) : S256x128.Idx → EReal) = (m ((c : Thread nD τ).loc main_arg13)) := Prologue.W3_v35 m ρ c

/-! ## The first region: the network on the GO-term rows and its two projections -/

/-- The first region's first output array is `g`. -/
theorem W4_g : W4 m ρ c (Proc.devRef .tc main_v36_0) = gT m c := by
  refine (W4_arr m ρ c 9).trans ((Region0.value_g (V3 m ρ) c).trans ?_)
  unfold Region0.gArr gT
  dsimp only [V3]
  rw [Prologue.W3_v31 m ρ c, W3_v32I m ρ c, W3_v33I m ρ c, Carry.W3_arg4 m ρ c, Carry.W3_arg6 m ρ c]

/-- Its second output array is the first projection. -/
theorem W4_p1 : W4 m ρ c (Proc.devRef .tc main_v36_1) = p1T m c := by
  refine (W4_arr m ρ c 10).trans ((Region0.value_p1 (V3 m ρ) c).trans ?_)
  unfold Region0.p1Arr Region0.gArr p1T gT
  dsimp only [V3]
  rw [Prologue.W3_v31 m ρ c, W3_v32I m ρ c, W3_v33I m ρ c, W3_v34I m ρ c, Carry.W3_arg4 m ρ c, Carry.W3_arg6 m ρ c, Carry.W3_arg12 m ρ c]

/-- Its third output array is the second projection. -/
theorem W4_p2 : W4 m ρ c (Proc.devRef .tc main_v36_2) = p2T m c := by
  refine (W4_arr m ρ c 11).trans ((Region0.value_p2 (V3 m ρ) c).trans ?_)
  unfold Region0.p2Arr Region0.p1Arr Region0.gArr p2T p1T gT
  dsimp only [V3]
  rw [Prologue.W3_v31 m ρ c, W3_v32I m ρ c, W3_v33I m ρ c, W3_v34I m ρ c, W3_v35I m ρ c, Carry.W3_arg4 m ρ c, Carry.W3_arg6 m ρ c, Carry.W3_arg12 m ρ c, Carry.W3_arg14 m ρ c]

/-! ## The node features and the first product -/

/-- The node features: the first slice stacked on `g`. -/
theorem W5_v37 : W5 m ρ c (Proc.devRef .tc main_v37) = ChainK.xt (F := Ideal) (m ((c : Thread nD τ).loc main_arg0)) (gT m c) :=
  Stages.features m ρ c (gT m c) (W4_g m ρ c)

/-- The second region's output array: the node features times the first convolution's weights. -/
theorem W6_v38 : W6 m ρ c (Proc.devRef .tc main_v38) = xw1T m c := by
  refine (W6_arr m ρ c 2).trans ((Region1.value (V5 m ρ) c).trans ?_)
  unfold xw1T
  dsimp only [V5]
  rw [W5_v37 m ρ c, Carry.W5_arg7 m ρ c]

/-! ## The first aggregation and the second product -/

/-- The first layer's output with its last rows replaced. -/
theorem W9_v57 : W9 m ρ c (Proc.devRef .tc main_v57) = h1T m c :=
  Stages.layer1 m ρ c (xw1T m c) (p1T m c) (W6_v38 m ρ c) (W4_p1 m ρ c)

/-- The third region's output array. -/
theorem W10_v58 : W10 m ρ c (Proc.devRef .tc main_v58) = xw2T m c := by
  refine (W10_arr m ρ c 2).trans ((Region2.value (V9 m ρ) c).trans ?_)
  unfold xw2T
  dsimp only [V9]
  rw [W9_v57 m ρ c, Carry.W9_arg9 m ρ c]

/-! ## The second aggregation and the final layer -/

/-- The second layer's output with its last rows replaced. -/
theorem W13_v77 : W13 m ρ c (Proc.devRef .tc main_v77) = h2T m c :=
  Stages.layer2 m ρ c (xw2T m c) (p2T m c) (W10_v58 m ρ c) (W4_p2 m ρ c)

/-- The result array: the final dense layer of the second layer's output. -/
theorem W14_v78 : W14 m ρ c (Proc.devRef .tc main_v78) = outT m c := by
  refine (W14_arr m ρ c 3).trans ((Region3.value (V13 m ρ) c).trans ?_)
  unfold outT
  dsimp only [V13]
  rw [W13_v77 m ρ c, Carry.W13_arg15 m ρ c, Carry.W13_arg16 m ρ c]

/-- The result array is the network of the argument arrays. -/
theorem value : W14 m ρ c (Proc.devRef .tc main_v78) = ChainK.net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W14_v78 m ρ c).trans (outT_eq_net m c)

end Cert.KernelIdeal.KValue

end
-- ==== Proof.Chain.lean ====
/-
  The operations of the network that are not dense layers, named once.

  A graph-convolution layer over a node set of 50000 rows: the edge list (two rows of 800000 node numbers) is extended by
  one self-loop per node; an edge's source and target are read with negative numbers counted from the end; the degree
  of a node is the number of extended edges that arrive at it; an edge's weight is the product of the inverse square
  roots of the degrees of its two ends (zero where the degree is not positive); a convolution gathers the projected
  row of every edge's source, scales it by the edge's weight, adds it into the row of the edge's target, adds the bias
  row and takes the maximum with zero. After each convolution the last 10000 rows are replaced by rows computed
  separately. `net` is the whole network: its dense layers are the specification's array functions, everything else is
  the operations named here.
-/
import proofs.«141848_j79654463472115_1_alg».proof.Proof.Gen.ReferenceIdeal
import proofs.«141848_j79654463472115_1_alg».proof.Proof.Spec

noncomputable section

namespace Cert.Gcn.Chain

open Cert.ReferenceIdeal Cert.ReferenceIdeal.Gen Idealize.ShloMosaic Idealize.SL.Sem

/-- The edge list: row 0 the sources, row 1 the targets. -/
abbrev Edges := (⟨S2x800000, .i32⟩ : BufTy).Contents (Elt Ideal)
/-- One node number per extended edge. -/
abbrev Ix := (⟨S850000, .i32⟩ : BufTy).Contents (Elt Ideal)

/-- The sources of the extended edges: row 0 of the edge list, then every node once (its self-loop). -/
def src (ei : Edges) : Ix :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The targets of the extended edges: row 1 of the edge list, then every node once. -/
def dst (ei : Edges) : Ix :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number counts from the end: 50000 is added to it. -/
def wrapIdx (v : Ix) : Ix :=
  select (cmpi .slt v (broadcastInDim S850000 ![] bcast_S_S850000 (constantI S_ 32 0#32))) (addi v (broadcastInDim S850000 ![] bcast_S_S850000 (constantI S_ 32 50000#32))) v

/-- The degree of every node: one added at the target of every extended edge. -/
def deg (ei : Edges) : FVec Ideal S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dst ei)) (broadcastInDim S850000 ![] bcast_S_S850000 (constant S_ .f32 0x3F800000#32))

/-- The inverse square root of the degree where the degree is positive, zero elsewhere. -/
def dinv (ei : Edges) : FVec Ideal S50000 .f32 :=
  select (cmpf (F := Ideal) .ogt (deg ei) (broadcastInDim S50000 ![] bcast_S_S50000 (constant S_ .f32 0x00000000#32))) (Host.rsqrt (deg ei)) (broadcastInDim S50000 ![] bcast_S_S50000 (id (constant S_ .f32 0x00000000#32)))

/-- The weight of every extended edge: the product of `dinv` at its source and at its target. -/
def norm (ei : Edges) : FVec Ideal S850000 .f32 :=
  mulf (Host.gather gather_S50000_S850000x1_S850000_n_0_n_n_0_1_1 (dinv ei) (broadcastInDim S850000x1 ![0] bcast_S850000_S850000x1_0 (wrapIdx (src ei)))) (Host.gather gather_S50000_S850000x1_S850000_n_0_n_n_0_1_1 (dinv ei) (broadcastInDim S850000x1 ![0] bcast_S850000_S850000x1_0 (wrapIdx (dst ei))))

/-- The convolution at 256 columns: the weighted rows of the sources added into the rows of the targets, plus the
    bias row, maximum with zero. -/
def conv256 (xw : FVec Ideal S50000x256 .f32) (ei : Edges) (b : FVec Ideal S256 .f32) : FVec Ideal S50000x256 .f32 :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 (dst ei)) (mulf (Host.gather gather_S50000x256_S850000x1_S850000x256_1_0_n_n_0_1_1256 xw (broadcastInDim S850000x1 ![0] bcast_S850000_S850000x1_0 (wrapIdx (src ei)))) (broadcastInDim S850000x256 ![0, 1] bcast_S850000x1_S850000x256_0_1 (broadcastInDim S850000x1 ![0] bcast_S850000_S850000x1_0 (norm ei))))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The convolution at 128 columns. -/
def conv128 (xw : FVec Ideal S50000x128 .f32) (ei : Edges) (b : FVec Ideal S128 .f32) : FVec Ideal S50000x128 .f32 :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (dst ei)) (mulf (Host.gather gather_S50000x128_S850000x1_S850000x128_1_0_n_n_0_1_1128 xw (broadcastInDim S850000x1 ![0] bcast_S850000_S850000x1_0 (wrapIdx (src ei)))) (broadcastInDim S850000x128 ![0, 1] bcast_S850000x1_S850000x128_0_1 (broadcastInDim S850000x1 ![0] bcast_S850000_S850000x1_0 (norm ei))))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Rows 40000 to 49999 of `h` replaced by the rows of `p` (256 columns). -/
def setTail256 (h : FVec Ideal S50000x256 .f32) (p : FVec Ideal S10000x256 .f32) : FVec Ideal S50000x256 .f32 :=
  Host.scatter scatter_S50000x256_S1_S10000x256_01_n_0_0 (fun _ b => b) h (broadcastInDim S1 ![] bcast_S_S1 (constantI S_ 32 40000#32)) p

/-- Rows 40000 to 49999 of `h` replaced by the rows of `p` (128 columns). -/
def setTail128 (h : FVec Ideal S50000x128 .f32) (p : FVec Ideal S10000x128 .f32) : FVec Ideal S50000x128 .f32 :=
  Host.scatter scatter_S50000x128_S1_S10000x128_01_n_0_0 (fun _ b => b) h (broadcastInDim S1 ![] bcast_S_S1 (constantI S_ 32 40000#32)) p

/-- The first 40000 rows of the input, their first 1280 columns. -/
def geneX (x : FVec Ideal S50000x4096 .f32) : FVec Ideal S40000x1280 .f32 :=
  extractStridedSlice S40000x1280 ![0, 0] x slices_S50000x4096_S40000x1280_0_0

/-- The last 10000 rows of the input, all 4096 columns. -/
def goidX (x : FVec Ideal S50000x4096 .f32) : FVec Ideal S10000x4096 .f32 :=
  extractStridedSlice S10000x4096 ![40000, 0] x slices_S50000x4096_S10000x4096_40000_0

/-- The node features: the first 40000 rows' 1280 columns, then the 10000 rows `g`. -/
def xt (x : FVec Ideal S50000x4096 .f32) (g : FVec Ideal S10000x1280 .f32) : FVec Ideal S50000x1280 .f32 :=
  concatenate S50000x1280 0 [⟨S40000x1280, (geneX x)⟩, ⟨S10000x1280, g⟩] concatenates_S40000x1280_S10000x1280_S50000x1280_d0

/-- The whole network: dense layers by the specification, the rest by the operations above. -/
def net (x : FVec Ideal S50000x4096 .f32) (ei : Edges)
    (Wd1 : FVec Ideal S4096x1024 .f32) (bd1 : FVec Ideal S1024 .f32)
    (Wd2 : FVec Ideal S1024x1280 .f32) (bd2 : FVec Ideal S1280 .f32)
    (W1 : FVec Ideal S1280x256 .f32) (b1 : FVec Ideal S256 .f32)
    (W2 : FVec Ideal S256x128 .f32) (b2 : FVec Ideal S128 .f32)
    (Wp1 : FVec Ideal S1280x256 .f32) (bp1 : FVec Ideal S256 .f32)
    (Wp2 : FVec Ideal S256x128 .f32) (bp2 : FVec Ideal S128 .f32)
    (Wf : FVec Ideal S128x64 .f32) (bf : FVec Ideal S64 .f32) : FVec Ideal S50000x64 .f32 :=
  let g  := reluArr (affineArr (reluArr (affineArr (goidX x) Wd1 bd1)) Wd2 bd2)
  let p1 := affineArr g Wp1 bp1
  let p2 := affineArr p1 Wp2 bp2
  let h1 := setTail256 (conv256 (linArr (xt x g) W1) ei b1) p1
  let h2 := setTail128 (conv128 (linArr h1 W2) ei b2) p2
  affineArr h2 Wf bf

end Cert.Gcn.Chain

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.HostDense.lean ====
/-
  The host's dense operations are the specification's array functions, as equalities of whole arrays at the exact
  extended reals.

  A plain contraction of an [R, K] array with a [K, N] array (the left operand's axis 1 against the right operand's
  axis 0, no batch axis) is the matrix product; the same plus a bias vector, laid first as one row and then along every
  row, is the affine layer; the maximum with a scalar zero broadcast to the shape is the maximum with zero entry by
  entry; and a change of float format changes no value.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value
import proofs.«141848_j79654463472115_1_alg».proof.Proof.Spec
import proofs.«141848_j79654463472115_1_alg».proof.Proof.LibDenseLayer
import proofs.«141848_j79654463472115_1_alg».proof.Proof.LibSageLayer

noncomputable section

open scoped BigOperators

namespace Cert.Gcn

open Idealize.ShloMosaic Idealize.ShloMosaic.ValueIdx Idealize.ShloMosaic.StackMember

/-- A plain contraction is the matrix product: entry (p, j) is the sum over k of A (p, k) · W (k, j). -/
theorem dot_eq_linArr {R K N : ℕ} (D : DotDims ⟨2, ![R, K]⟩ ⟨2, ![K, N]⟩ ⟨2, ![R, N]⟩) (hD : D = DotDims.plain R K N)
    (A : FVec Ideal ⟨2, ![R, K]⟩ .f32) (W : FVec Ideal ⟨2, ![K, N]⟩ .f32) :
    Host.dotGeneral D none A W = linArr A W := by
  subst hD
  funext i
  obtain ⟨p, j, rfl⟩ : ∃ (p : Fin R) (j : Fin N), i = ix2 p j := ⟨i 0, i 1, eq_ix2 i⟩
  rw [linArr_apply]
  exact dotGeneral_plain_apply none A W p j

/-- The contraction plus the bias vector (laid as one row, the row laid along every row) is the affine layer. -/
theorem hostAffine_eq {R K N : ℕ} (D : DotDims ⟨2, ![R, K]⟩ ⟨2, ![K, N]⟩ ⟨2, ![R, N]⟩) (hD : D = DotDims.plain R K N)
    (A : FVec Ideal ⟨2, ![R, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral D none A W)
        (broadcastInDim ⟨2, ![R, N]⟩ ![0, 1] h2 (broadcastInDim ⟨2, ![1, N]⟩ ![1] h1 b))
      = affineArr A W b := by
  subst hD
  funext i
  obtain ⟨p, j, rfl⟩ : ∃ (p : Fin R) (j : Fin N), i = ix2 p j := ⟨i 0, i 1, eq_ix2 i⟩
  rw [affineArr_apply, addf_apply, broadcastInDim_oneRow_apply, Cert.Sage.broadcastInDim_vecRow_apply,
    dotGeneral_plain_apply]

/-- The maximum with a scalar zero broadcast to the shape is the maximum with zero, entry by entry. -/
theorem hostRelu_eq {s : Shape} (v : FVec Ideal s .f32) (h : (⟨0, ![]⟩ : Shape).BroadcastsInDim s ![]) :
    maximumf v (broadcastInDim s ![] h (constant (F := Ideal) ⟨0, ![]⟩ .f32 0x00000000#32)) = reluArr v := by
  funext i
  rw [reluArr_apply]
  exact Cert.Sage.relu_host_apply v h i

/-- At the extended reals a narrowing change of float format is the identity. -/
theorem truncf_bf16_eq {s : Shape} (v : FVec Ideal s .f32) (h : FTy.bits .bf16 < FTy.bits .f32) :
    (truncf .bf16 v h : s.Idx → EReal) = v := rfl

end Cert.Gcn

end
-- ==== Proof.RefHost.lean ====
/-
  The network with its dense layers written as the host writes them — a plain contraction, the bias vector laid along
  every row and added, the maximum with a broadcast zero — is the network with the specification's array functions in
  their place. Everything that is not a dense layer is the same named operation on both sides and is never opened.
-/
import proofs.«141848_j79654463472115_1_alg».proof.Proof.Chain
import proofs.«141848_j79654463472115_1_alg».proof.Proof.HostDense

noncomputable section

namespace Cert.Gcn.RefValue

open Cert.ReferenceIdeal Cert.ReferenceIdeal.Gen Idealize.ShloMosaic Idealize.SL.Sem Cert.Gcn Cert.Gcn.Chain

/-- The two dense layers with maximum-with-zero that turn the last 10000 input rows into 1280 features, as the host
    writes them. -/
def gHost (x : FVec Ideal S50000x4096 .f32) (Wd1 : FVec Ideal S4096x1024 .f32) (bd1 : FVec Ideal S1024 .f32)
    (Wd2 : FVec Ideal S1024x1280 .f32) (bd2 : FVec Ideal S1280 .f32) : FVec Ideal S10000x1280 .f32 :=
  maximumf (addf (Host.dotGeneral dot_S10000x1024_S1024x1280_S10000x1280_1_0_0_1_n_n none (maximumf (addf (Host.dotGeneral dot_S10000x4096_S4096x1024_S10000x1024_1_0_0_1_n_n none (goidX x) Wd1) (broadcastInDim S10000x1024 ![0, 1] bcast_S1x1024_S10000x1024_0_1 (broadcastInDim S1x1024 ![1] bcast_S1024_S1x1024_1 bd1))) (broadcastInDim S10000x1024 ![] bcast_S_S10000x1024 (constant S_ .f32 0x00000000#32))) Wd2) (broadcastInDim S10000x1280 ![0, 1] bcast_S1x1280_S10000x1280_0_1 (broadcastInDim S1x1280 ![1] bcast_S1280_S1x1280_1 bd2))) (broadcastInDim S10000x1280 ![] bcast_S_S10000x1280 (constant S_ .f32 0x00000000#32))

/-- They are the specification's layers. -/
theorem gHost_eq (x : FVec Ideal S50000x4096 .f32) (Wd1 : FVec Ideal S4096x1024 .f32) (bd1 : FVec Ideal S1024 .f32)
    (Wd2 : FVec Ideal S1024x1280 .f32) (bd2 : FVec Ideal S1280 .f32) :
    gHost x Wd1 bd1 Wd2 bd2 = reluArr (affineArr (reluArr (affineArr (goidX x) Wd1 bd1)) Wd2 bd2) := by
  unfold gHost
  rw [hostAffine_eq dot_S10000x4096_S4096x1024_S10000x1024_1_0_0_1_n_n rfl, hostRelu_eq, hostAffine_eq dot_S10000x1024_S1024x1280_S10000x1280_1_0_0_1_n_n rfl, hostRelu_eq]

/-- The whole network as the host writes it. -/
def netHost (x : FVec Ideal S50000x4096 .f32) (ei : Edges)
    (Wd1 : FVec Ideal S4096x1024 .f32) (bd1 : FVec Ideal S1024 .f32)
    (Wd2 : FVec Ideal S1024x1280 .f32) (bd2 : FVec Ideal S1280 .f32)
    (W1 : FVec Ideal S1280x256 .f32) (b1 : FVec Ideal S256 .f32)
    (W2 : FVec Ideal S256x128 .f32) (b2 : FVec Ideal S128 .f32)
    (Wp1 : FVec Ideal S1280x256 .f32) (bp1 : FVec Ideal S256 .f32)
    (Wp2 : FVec Ideal S256x128 .f32) (bp2 : FVec Ideal S128 .f32)
    (Wf : FVec Ideal S128x64 .f32) (bf : FVec Ideal S64 .f32) : FVec Ideal S50000x64 .f32 :=
  addf (Host.dotGeneral dot_S50000x128_S128x64_S50000x64_1_0_0_1_n_n none (setTail128 (conv128 (Host.dotGeneral dot_S50000x256_S256x128_S50000x128_1_0_0_1_n_n none (setTail256 (conv256 (Host.dotGeneral dot_S50000x1280_S1280x256_S50000x256_1_0_0_1_n_n none (xt x (gHost x Wd1 bd1 Wd2 bd2)) W1) ei b1) (addf (Host.dotGeneral dot_S10000x1280_S1280x256_S10000x256_1_0_0_1_n_n none (gHost x Wd1 bd1 Wd2 bd2) Wp1) (broadcastInDim S10000x256 ![0, 1] bcast_S1x256_S10000x256_0_1 (broadcastInDim S1x256 ![1] bcast_S256_S1x256_1 bp1)))) W2) ei b2) (addf (Host.dotGeneral dot_S10000x256_S256x128_S10000x128_1_0_0_1_n_n none (addf (Host.dotGeneral dot_S10000x1280_S1280x256_S10000x256_1_0_0_1_n_n none (gHost x Wd1 bd1 Wd2 bd2) Wp1) (broadcastInDim S10000x256 ![0, 1] bcast_S1x256_S10000x256_0_1 (broadcastInDim S1x256 ![1] bcast_S256_S1x256_1 bp1))) Wp2) (broadcastInDim S10000x128 ![0, 1] bcast_S1x128_S10000x128_0_1 (broadcastInDim S1x128 ![1] bcast_S128_S1x128_1 bp2)))) Wf) (broadcastInDim S50000x64 ![0, 1] bcast_S1x64_S50000x64_0_1 (broadcastInDim S1x64 ![1] bcast_S64_S1x64_1 bf))

/-- The host's network is the specification's. -/
theorem netHost_eq (x : FVec Ideal S50000x4096 .f32) (ei : Edges)
    (Wd1 : FVec Ideal S4096x1024 .f32) (bd1 : FVec Ideal S1024 .f32)
    (Wd2 : FVec Ideal S1024x1280 .f32) (bd2 : FVec Ideal S1280 .f32)
    (W1 : FVec Ideal S1280x256 .f32) (b1 : FVec Ideal S256 .f32)
    (W2 : FVec Ideal S256x128 .f32) (b2 : FVec Ideal S128 .f32)
    (Wp1 : FVec Ideal S1280x256 .f32) (bp1 : FVec Ideal S256 .f32)
    (Wp2 : FVec Ideal S256x128 .f32) (bp2 : FVec Ideal S128 .f32)
    (Wf : FVec Ideal S128x64 .f32) (bf : FVec Ideal S64 .f32) :
    netHost x ei Wd1 bd1 Wd2 bd2 W1 b1 W2 b2 Wp1 bp1 Wp2 bp2 Wf bf
      = net x ei Wd1 bd1 Wd2 bd2 W1 b1 W2 b2 Wp1 bp1 Wp2 bp2 Wf bf := by
  unfold netHost net
  dsimp only
  rw [gHost_eq, hostAffine_eq dot_S10000x1280_S1280x256_S10000x256_1_0_0_1_n_n rfl, hostAffine_eq dot_S10000x256_S256x128_S10000x128_1_0_0_1_n_n rfl,
    dot_eq_linArr dot_S50000x1280_S1280x256_S50000x256_1_0_0_1_n_n rfl, dot_eq_linArr dot_S50000x256_S256x128_S50000x128_1_0_0_1_n_n rfl,
    hostAffine_eq dot_S50000x128_S128x64_S50000x64_1_0_0_1_n_n rfl]

end Cert.Gcn.RefValue

end
-- ==== Proof.RefValue.lean ====
/-
  The reference's result is the network of the specification.

  The reference's run leaves, in its result buffer, one composed term of its argument arrays. That term is, letter for
  letter, the network with the host's dense operations (the named operations unfolded), and the host's dense
  operations are the specification's array functions.
-/
import proofs.«141848_j79654463472115_1_alg».proof.Proof.RefRun
import proofs.«141848_j79654463472115_1_alg».proof.Proof.RefHost

noncomputable section

namespace Cert.Gcn.RefValue

open Cert.ReferenceIdeal Cert.ReferenceIdeal.Gen Idealize.ShloMosaic Idealize.ShloMosaic.TcCoe Idealize.SL.Sem
  Idealize.ShloMosaic.StableHlo Cert.Gcn Cert.Gcn.Chain

/-- The run's composed term is the host's network of the argument arrays: the same text once the named operations
    are unfolded. -/
theorem res_eq_netHost (m : (ℓ : Loc nD τ sig) → Buf (Elt Ideal) ℓ) (c : Dev nD) :
    Cert.ReferenceIdeal.RunP.res_main_v117 (F := Ideal) m c
      = netHost (m ((c.tc : Thread nD τ).loc main_arg0))
          (m ((c.tc : Thread nD τ).loc main_arg1))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16)) := by
  unfold Cert.ReferenceIdeal.RunP.res_main_v117 netHost gHost xt geneX goidX setTail256 setTail128 conv256 conv128 Chain.norm dinv deg
    wrapIdx src dst
  with_reducible rfl

/-- The reference's result is the network of the specification, of the argument arrays. -/
theorem ref_result (m : (ℓ : Loc nD τ sig) → Buf (Elt Ideal) ℓ) (c : Dev nD) :
    Cert.ReferenceIdeal.RunP.res_out0 (F := Ideal) m c
      = Chain.net (m ((c.tc : Thread nD τ).loc main_arg0))
          (m ((c.tc : Thread nD τ).loc main_arg1))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16)) :=
  (res_eq_netHost m c).trans (netHost_eq _ _ _ _ _ _ _ _ _ _ _ _ _ _ _ _)

end Cert.Gcn.RefValue

end
-- ==== Proof.Bridge.lean ====
/-
  The two spellings of the network are one function.

  The kernel's program and the reference's program each come with their own copies of the shape names and of the
  dimension records of the host operations (the gathers, the scatter-additions, the row assignments, the slices and the
  stackings). The copies are the same literals, so the operations named over one program's copies and over the other's
  are the same functions, and so are the two networks built from them.
-/
import proofs.«141848_j79654463472115_1_alg».proof.Proof.Chain
import proofs.«141848_j79654463472115_1_alg».proof.Proof.ChainK

noncomputable section

namespace Cert.Gcn.Bridge

open Idealize.ShloMosaic Idealize.SL.Sem

theorem src_eq (ei : ChainK.Edges Ideal) : ChainK.src ei = Chain.src ei := rfl
theorem dst_eq (ei : ChainK.Edges Ideal) : ChainK.dst ei = Chain.dst ei := rfl
theorem wrapIdx_eq (v : ChainK.Ix Ideal) : ChainK.wrapIdx v = Chain.wrapIdx v := rfl
theorem deg_eq (ei : ChainK.Edges Ideal) : ChainK.deg ei = Chain.deg ei := rfl
theorem dinv_eq (ei : ChainK.Edges Ideal) : ChainK.dinv ei = Chain.dinv ei := rfl
theorem norm_eq (ei : ChainK.Edges Ideal) : ChainK.norm ei = Chain.norm ei := rfl
theorem conv256_eq (xw : FVec Ideal Cert.KernelIdeal.S50000x256 .f32) (ei : ChainK.Edges Ideal) (b : FVec Ideal Cert.KernelIdeal.S256 .f32) :
    ChainK.conv256 xw ei b = Chain.conv256 xw ei b := rfl
theorem conv128_eq (xw : FVec Ideal Cert.KernelIdeal.S50000x128 .f32) (ei : ChainK.Edges Ideal) (b : FVec Ideal Cert.KernelIdeal.S128 .f32) :
    ChainK.conv128 xw ei b = Chain.conv128 xw ei b := rfl
theorem setTail256_eq (h : FVec Ideal Cert.KernelIdeal.S50000x256 .f32) (p : FVec Ideal Cert.KernelIdeal.S10000x256 .f32) :
    ChainK.setTail256 h p = Chain.setTail256 h p := rfl
theorem setTail128_eq (h : FVec Ideal Cert.KernelIdeal.S50000x128 .f32) (p : FVec Ideal Cert.KernelIdeal.S10000x128 .f32) :
    ChainK.setTail128 h p = Chain.setTail128 h p := rfl
theorem xt_eq (x : FVec Ideal Cert.KernelIdeal.S50000x4096 .f32) (g : FVec Ideal Cert.KernelIdeal.S10000x1280 .f32) :
    ChainK.xt x g = Chain.xt x g := rfl
theorem goidX_eq (x : FVec Ideal Cert.KernelIdeal.S50000x4096 .f32) : ChainK.goidX x = Chain.goidX x := rfl

/-- The network over the kernel's spelling is the network over the reference's. -/
theorem net_eq (x : FVec Ideal Cert.KernelIdeal.S50000x4096 .f32) (ei : ChainK.Edges Ideal) (Wd1 : FVec Ideal Cert.KernelIdeal.S4096x1024 .f32) (bd1 : FVec Ideal Cert.KernelIdeal.S1024 .f32) (Wd2 : FVec Ideal Cert.KernelIdeal.S1024x1280 .f32) (bd2 : FVec Ideal Cert.KernelIdeal.S1280 .f32) (W1 : FVec Ideal Cert.KernelIdeal.S1280x256 .f32) (b1 : FVec Ideal Cert.KernelIdeal.S256 .f32) (W2 : FVec Ideal Cert.KernelIdeal.S256x128 .f32) (b2 : FVec Ideal Cert.KernelIdeal.S128 .f32) (Wp1 : FVec Ideal Cert.KernelIdeal.S1280x256 .f32) (bp1 : FVec Ideal Cert.KernelIdeal.S256 .f32) (Wp2 : FVec Ideal Cert.KernelIdeal.S256x128 .f32) (bp2 : FVec Ideal Cert.KernelIdeal.S128 .f32) (Wf : FVec Ideal Cert.KernelIdeal.S128x64 .f32) (bf : FVec Ideal Cert.KernelIdeal.S64 .f32) :
    ChainK.net x ei Wd1 bd1 Wd2 bd2 W1 b1 W2 b2 Wp1 bp1 Wp2 bp2 Wf bf = Chain.net x ei Wd1 bd1 Wd2 bd2 W1 b1 W2 b2 Wp1 bp1 Wp2 bp2 Wf bf := by
  unfold ChainK.net Chain.net
  simp only [goidX_eq, xt_eq, conv256_eq, conv128_eq, setTail256_eq, setTail128_eq]

end Cert.Gcn.Bridge

end
-- ==== Proof.lean ====
/-
  A two-layer graph-convolution network whose dense products run in four kernel regions, against its plain reference.

  The network: on 50000 nodes (40000 gene rows, 10000 GO-term rows) with an edge list extended by one self-loop per
  node. The GO-term rows pass through a two-layer network `g = relu(relu(x·Wd1 + bd1)·Wd2 + bd2)` and two projections
  `p1 = g·Wp1 + bp1`, `p2 = p1·Wp2 + bp2`. The node features are the gene rows stacked on `g`. A convolution
  multiplies the features by its weights, gathers each edge's source row, scales it by the edge's weight (the product of
  the inverse square roots of the degrees of its two ends), adds it into the edge's target row, adds the bias and takes
  the maximum with zero; after the first convolution the GO-term rows are replaced by `p1`, after the second by `p2`;
  a final dense layer follows.

  The kernel computes every matrix product in a tiled region (the first region fuses `g`, `p1`, `p2` on blocks of 200
  rows; the others are plain tiled products on blocks of 1000 or 2000 rows), with operands narrowed to bf16 and
  accumulated in f32 from a zero accumulator; everything else is host operations, the same ones the reference applies.
  At the exact extended reals a change of float format is the identity and a product into a zero accumulator is the plain
  sum of products, so each region's output ARRAY is the dense layer of its input arrays that the reference computes with
  `dot_general`, `add` and `maximum` (the region modules; the cover of the array by its row blocks); the operations
  between the regions are the reference's own, applied to equal arrays. No law beyond that is used — no distributivity,
  no cancellation — so the precondition (finite inputs) is never opened.

  The modules: `Spec` (the dense layers as array functions), `Region0` … `Region3` (each region's output array),
  `Chain` / `ChainK` (the shared host operations named once, in each program's spelling) and `Bridge` (the two
  spellings are one function), `KCarry` / `KPrologue` / `KValue` (the kernel's boundary contents walked from the launch
  to the result), `HostDense` / `RefHost` / `RefValue` (the reference's result term is the same network).
-/
import proofs.«141848_j79654463472115_1_alg».proof.Defs
import proofs.«141848_j79654463472115_1_alg».proof.Proof.Gen.Kernel
import proofs.«141848_j79654463472115_1_alg».proof.Proof.Gen.Kernel.Skeleton
import proofs.«141848_j79654463472115_1_alg».proof.Proof.Gen.Kernel.Launch
import proofs.«141848_j79654463472115_1_alg».proof.Proof.Gen.Kernel.Points
import proofs.«141848_j79654463472115_1_alg».proof.Proof.Gen.Kernel.Frame
import proofs.«141848_j79654463472115_1_alg».proof.Proof.Gen.KernelIdeal
import proofs.«141848_j79654463472115_1_alg».proof.Proof.Gen.KernelIdeal.Skeleton
import proofs.«141848_j79654463472115_1_alg».proof.Proof.Gen.KernelIdeal.Launch
import proofs.«141848_j79654463472115_1_alg».proof.Proof.Gen.KernelIdeal.Points
import proofs.«141848_j79654463472115_1_alg».proof.Proof.Gen.KernelIdeal.Frame
import proofs.«141848_j79654463472115_1_alg».proof.Proof.Gen.ReferenceIdeal
import proofs.«141848_j79654463472115_1_alg».proof.Proof.Gen.Pre_finite_inputs
import proofs.«141848_j79654463472115_1_alg».proof.Proof.KRun
import proofs.«141848_j79654463472115_1_alg».proof.Proof.KValue
import proofs.«141848_j79654463472115_1_alg».proof.Proof.RefRun
import proofs.«141848_j79654463472115_1_alg».proof.Proof.RefValue
import proofs.«141848_j79654463472115_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel :=
  fun m ρ _ => Cert.Kernel.Gen.frame m ρ

/-- So does the idealized kernel. -/
theorem frame_ki : Cert.frame_KernelIdeal :=
  fun m ρ _ => Cert.KernelIdeal.Gen.frame m ρ

/-- The reference's frame is its run with the result dropped. -/
theorem frame_ri : Cert.frame_ReferenceIdeal :=
  fun m ρ _ => (θ_run Cert.ReferenceIdeal.defs _ _).mono (fun _ h c => (h c).2)
    (Cert.ReferenceIdeal.RunP.run (F := Ideal) m ρ)

/-- From memories agreeing on the arguments both idealized programs end with the network of the argument arrays. -/
theorem algebraic : Cert.algebraic_KernelIdeal_ReferenceIdeal := by
  intro m ρ m' ρ' _ hagree
  refine ⟨fun c => Cert.Gcn.ChainK.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.KValue.value m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.RunP.run (F := Ideal) m' ρ')
    refine (Cert.Gcn.RefValue.ref_result m' c).trans ?_
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Cert.Gcn.Bridge.net_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
